-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 53
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x256, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000x256, .f32⟩
  | .hbm, ⟨31, _⟩ => ⟨S_, .f32⟩
  | .hbm, ⟨32, _⟩ => ⟨S50000x256, .f32⟩
  | .hbm, ⟨33, _⟩ => ⟨S850000x1, .i32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x128, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S1x128, .f32⟩
  | .hbm, ⟨52, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000x256, .f32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x256, .f32⟩
  | .hbm, ⟨50, _⟩ => ⟨S850000x1, .f32⟩
  | .hbm, ⟨51, _⟩ => ⟨S850000x256, .f32⟩
  | .hbm, ⟨52, _⟩ => ⟨S850000x256, .f32⟩
  | .hbm, ⟨53, _⟩ => ⟨S_, .f32⟩
  | .hbm, ⟨54, _⟩ => ⟨S50000x256, .f32⟩
  | .hbm, ⟨55, _⟩ => ⟨S850000x1, .i32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x128, .f32⟩
  | .hbm, ⟨64, _⟩ => ⟨S1x800000, .i32⟩
  | .hbm, ⟨65, _⟩ => ⟨S800000, .i32⟩
  | .hbm, ⟨66, _⟩ => ⟨S50000, .i32⟩
  | .hbm, ⟨67, _⟩ => ⟨S850000, .i32⟩
  | .hbm, ⟨68, _⟩ => ⟨S1x800000, .i32⟩
  | .hbm, ⟨69, _⟩ => ⟨S800000, .i32⟩
  | .hbm, ⟨70, _⟩ => ⟨S50000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S50000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_9 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_11 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_13 : Ref sig .tc := ⟨.hbm, 98, rfl⟩
abbrev main_v75 : Ref sig .tc := ⟨.hbm, 99, rfl⟩
abbrev main_v76 : Ref sig .tc := ⟨.hbm, 100, rfl⟩
abbrev main_c_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel program's run with its result named.

  Every weakly fair execution of the program's entry point from a memory with zero counters terminates without a
  fault, its argument arrays end as launched, and its result array ends at the contents the last of the program's
  seven segments (three stretches of host operations and four kernel regions, in order) leaves in the result's
  buffer: region 3's output array after all of that region's write-backs. The segments, the contents at each
  boundary (`W0 … W7`) and the thread state carried through them are those of the program's frame; this statement
  reads one more buffer, the result's, off the final thread state.
-/
import proofs.«116918_j58720792871577_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.IndexCols.lean ====
/-
  The graph's index columns as both programs build them from the `[2, 800000]` edge list `a`.

  Row 0 of `a` (the sources) and row 1 (the destinations) are each followed by the 50000 self-loops `0, 1, …, 49999`,
  giving two vectors of 850000 indices. A vector used by a GATHER is first wrapped (a negative entry has 50000 added
  to it); a vector used by a SCATTER is used as it is. Each is then laid out as an `[850000, 1]` column.
-/
import proofs.«116918_j58720792871577_2_alg».proof.Proof.Gen.KernelIdeal

noncomputable section

namespace Cert.Gcn

open Idealize.ShloMosaic Cert.KernelIdeal Cert.KernelIdeal.Gen

/-- Row `r` of the edge list followed by the self-loops `0 … 49999`. -/
def edgeVec (r : Nat) (h : S2x800000.Slices ![r, 0] S1x800000) (a : IVec S2x800000 32) : IVec S850000 32 :=
  concatenate S850000 0 [⟨S800000, shapeCast S800000 (extractStridedSlice S1x800000 ![r, 0] a h) shapeCasts_S1x800000_S800000⟩,
    ⟨S50000, iotaInDim S50000 32 0⟩] concatenates_S800000_S50000_S850000_d0

/-- The sources: row 0 and the self-loops. -/
def srcVec (a : IVec S2x800000 32) : IVec S850000 32 := edgeVec 0 slices_S2x800000_S1x800000_0_0 a

/-- The destinations: row 1 and the self-loops. -/
def dstVec (a : IVec S2x800000 32) : IVec S850000 32 := edgeVec 1 slices_S2x800000_S1x800000_1_0 a

/-- A negative entry has 50000 added to it; the others are kept. -/
def wrapVec (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A vector laid out as an `[850000, 1]` column. -/
def col (v : IVec S850000 32) : IVec S850000x1 32 := broadcastInDim S850000x1 ![0] bcast_S850000_S850000x1_0 v

/-- The column every row gather of node features reads through: the wrapped sources. -/
def srcCol (a : IVec S2x800000 32) : IVec S850000x1 32 := col (wrapVec (srcVec a))

/-- The column every scatter writes through: the destinations as they are. -/
def dstCol (a : IVec S2x800000 32) : IVec S850000x1 32 := col (dstVec a)

/-- The column the reference gathers the destination's scale through: the wrapped destinations. -/
def dstWrapCol (a : IVec S2x800000 32) : IVec S850000x1 32 := col (wrapVec (dstVec a))

end Cert.Gcn

end
-- ==== Proof.KHost.lean ====
import proofs.«116918_j58720792871577_2_alg».proof.Proof.Gen.KernelIdeal.Frame
import proofs.«116918_j58720792871577_2_alg».proof.Proof.IndexCols
import Idealize.ShloMosaic.Lib.StableHlo.Run
import Idealize.ShloMosaic.PureOps.Ideal
import Idealize.ShloMosaic.Lib.ValueIdx

set_option maxRecDepth 16384

noncomputable section

/-!
  What the idealized kernel program's three stretches of host operations compute, and which buffers they and the four
  kernel regions leave alone.

  Before region 0: the two index vectors (sources and destinations with the self-loops), the in-degree as a scatter of
  ones through the destination column, and its reciprocal square root laid out as a `[50000, 1]` column.
  Between regions 0 and 1, and between regions 2 and 3: the rows of the scaled features gathered through the wrapped
  source column and scattered, adding, through the destination column into zeros; and the bias laid out as a row.
-/
namespace Cert.KernelIdeal.KHost

open Cert.KernelIdeal Cert.KernelIdeal.Gen Cert.Gcn
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- The in-degree vector: ones scattered, adding, through the destination column into zeros. -/
def degVec (a : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32)) (dstCol a)
    (broadcastInDim S850000 ![] bcast_S_S850000 (constant (F := Ideal) S_ .f32 0x3F800000#32))

/-- The reciprocal square root of the in-degree, as a `[50000, 1]` column. -/
def dinvCol (a : IVec S2x800000 32) : FVec Ideal S50000x1 .f32 :=
  shapeCast S50000x1 (Host.rsqrt (F := Ideal) (degVec a)) shapeCasts_S50000_S50000x1

/-- Rows of a `[50000, 256]` array gathered through the wrapped sources and scattered, adding, through the
    destinations into zeros. -/
def agg256 (hs : FVec Ideal S50000x256 .f32) (sv dv : IVec S850000 32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (col dv)
    (Host.gather gather_S50000x256_S850000x1_S850000x256_1_0_n_n_0_1_1256 hs (col (wrapVec sv)))

/-- The same for a `[50000, 128]` array. -/
def agg128 (hs : FVec Ideal S50000x128 .f32) (sv dv : IVec S850000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (col dv)
    (Host.gather gather_S50000x128_S850000x1_S850000x128_1_0_n_n_0_1_1128 hs (col (wrapVec sv)))

/-! ## Before region 0 -/

theorem W1_src : (W1 (F := Ideal) m ρ c (Proc.devRef .tc main_v3) : S850000.Idx → BitVec 32) = srcVec (m ((c : Thread nD τ).loc main_arg1)) := by
  show StableHlo.after hostOps0 (W0 m ρ c) (Proc.devRef .tc main_v3) = _
  after_results
  rfl

theorem W1_dst : (W1 (F := Ideal) m ρ c (Proc.devRef .tc main_v6) : S850000.Idx → BitVec 32) = dstVec (m ((c : Thread nD τ).loc main_arg1)) := by
  show StableHlo.after hostOps0 (W0 m ρ c) (Proc.devRef .tc main_v6) = _
  after_results
  rfl

theorem W1_dinv : (W1 (F := Ideal) m ρ c (Proc.devRef .tc main_v12) : S50000x1.Idx → EReal) = dinvCol (m ((c : Thread nD τ).loc main_arg1)) := by
  show StableHlo.after hostOps0 (W0 m ρ c) (Proc.devRef .tc main_v12) = _
  after_results
  rfl

end Cert.KernelIdeal.KHost
end
-- ==== Proof.KWalk.lean ====
import proofs.«116918_j58720792871577_2_alg».proof.Proof.Gen.KernelIdeal.Frame
import proofs.«116918_j58720792871577_2_alg».proof.Proof.KHost
import Idealize.ShloMosaic.Lib.StableHlo.Run
import Idealize.ShloMosaic.PureOps.Ideal
import Idealize.ShloMosaic.Lib.ValueIdx

set_option maxRecDepth 16384

noncomputable section

/-!
  Which buffers each segment of the idealized kernel program leaves alone, read between the boundary contents
  `W0 … W7` of the program's frame: a kernel region changes only its one output array (an input array it stages ends
  as it was found, and a buffer that is none of its arrays is untouched), and a stretch of host operations changes only
  the buffers its operations write. So the index vectors and the reciprocal-square-root column computed before
  region 0 reach every later segment unchanged, each region's output reaches the next segment that reads it, and the
  argument arrays are the launch memory's throughout.
-/
namespace Cert.KernelIdeal.KHost

open Cert.KernelIdeal Cert.KernelIdeal.Gen Cert.Gcn
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-! ## Region outputs -/
theorem W2_out : W2 (F := Ideal) m ρ c (Proc.devRef .tc main_v13) = (dat0 (V1 m ρ) c).arrAt 3 cfg0.N := W2_arr m ρ c 3
theorem W4_out : W4 (F := Ideal) m ρ c (Proc.devRef .tc main_v25) = (dat1 (V3 m ρ) c).arrAt 3 cfg1.N := W4_arr m ρ c 3
theorem W5_out : W5 (F := Ideal) m ρ c (Proc.devRef .tc main_v26) = (dat2 (V4 m ρ) c).arrAt 3 cfg2.N := W5_arr m ρ c 3
theorem W7_out : W7 (F := Ideal) m ρ c (Proc.devRef .tc main_v38) = (dat3 (V6 m ρ) c).arrAt 3 cfg3.N := W7_arr m ρ c 3

/-! ## The reciprocal-square-root column: an input array of every region -/
theorem W2_dinv : W2 (F := Ideal) m ρ c (Proc.devRef .tc main_v12) = W1 m ρ c (Proc.devRef .tc main_v12) :=
  (W2_arr m ρ c 2).trans (((dat0 (V1 m ρ) c).arrAt_in 2 rfl _).trans (A_eq0 (V1 m ρ) c 2))
theorem W4_dinv : W4 (F := Ideal) m ρ c (Proc.devRef .tc main_v12) = W3 m ρ c (Proc.devRef .tc main_v12) :=
  (W4_arr m ρ c 1).trans (((dat1 (V3 m ρ) c).arrAt_in 1 rfl _).trans (A_eq1 (V3 m ρ) c 1))
theorem W5_dinv : W5 (F := Ideal) m ρ c (Proc.devRef .tc main_v12) = W4 m ρ c (Proc.devRef .tc main_v12) :=
  (W5_arr m ρ c 2).trans (((dat2 (V4 m ρ) c).arrAt_in 2 rfl _).trans (A_eq2 (V4 m ρ) c 2))

/-! ## The index vectors: no region's array, written by no later operation -/
theorem W2_src : W2 (F := Ideal) m ρ c (Proc.devRef .tc main_v3) = W1 m ρ c (Proc.devRef .tc main_v3) := W2_of_ne m ρ c main_v3 (by decide)
theorem W2_dst : W2 (F := Ideal) m ρ c (Proc.devRef .tc main_v6) = W1 m ρ c (Proc.devRef .tc main_v6) := W2_of_ne m ρ c main_v6 (by decide)
theorem W3_src : W3 (F := Ideal) m ρ c (Proc.devRef .tc main_v3) = W2 m ρ c (Proc.devRef .tc main_v3) :=
  StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_dst : W3 (F := Ideal) m ρ c (Proc.devRef .tc main_v6) = W2 m ρ c (Proc.devRef .tc main_v6) :=
  StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W4_src : W4 (F := Ideal) m ρ c (Proc.devRef .tc main_v3) = W3 m ρ c (Proc.devRef .tc main_v3) := W4_of_ne m ρ c main_v3 (by decide)
theorem W4_dst : W4 (F := Ideal) m ρ c (Proc.devRef .tc main_v6) = W3 m ρ c (Proc.devRef .tc main_v6) := W4_of_ne m ρ c main_v6 (by decide)
theorem W5_src : W5 (F := Ideal) m ρ c (Proc.devRef .tc main_v3) = W4 m ρ c (Proc.devRef .tc main_v3) := W5_of_ne m ρ c main_v3 (by decide)
theorem W5_dst : W5 (F := Ideal) m ρ c (Proc.devRef .tc main_v6) = W4 m ρ c (Proc.devRef .tc main_v6) := W5_of_ne m ρ c main_v6 (by decide)

/-! ## The argument arrays are the launch memory's -/
theorem W0_arg (b : Ref sig .tc) : W0 (F := Ideal) m ρ c (Proc.devRef .tc b) = m ((c : Thread nD τ).loc b) := rfl
theorem W1_arg0 : W1 (F := Ideal) m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg2 : W1 (F := Ideal) m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg3 : W1 (F := Ideal) m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg4 : W1 (F := Ideal) m ρ c (Proc.devRef .tc main_arg4) = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_arg5 : W1 (F := Ideal) m ρ c (Proc.devRef .tc main_arg5) = m ((c : Thread nD τ).loc main_arg5) :=
  StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_arg3 : W2 (F := Ideal) m ρ c (Proc.devRef .tc main_arg3) = m ((c : Thread nD τ).loc main_arg3) :=
  (W2_of_ne m ρ c main_arg3 (by decide)).trans (W1_arg3 m ρ c)
theorem W2_arg4 : W2 (F := Ideal) m ρ c (Proc.devRef .tc main_arg4) = m ((c : Thread nD τ).loc main_arg4) :=
  (W2_of_ne m ρ c main_arg4 (by decide)).trans (W1_arg4 m ρ c)
theorem W2_arg5 : W2 (F := Ideal) m ρ c (Proc.devRef .tc main_arg5) = m ((c : Thread nD τ).loc main_arg5) :=
  (W2_of_ne m ρ c main_arg5 (by decide)).trans (W1_arg5 m ρ c)
theorem W3_arg4 : W3 (F := Ideal) m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arg4 m ρ c)
theorem W3_arg5 : W3 (F := Ideal) m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arg5 m ρ c)
theorem W4_arg4 : W4 (F := Ideal) m ρ c (Proc.devRef .tc main_arg4) = m ((c : Thread nD τ).loc main_arg4) :=
  (W4_of_ne m ρ c main_arg4 (by decide)).trans (W3_arg4 m ρ c)
theorem W4_arg5 : W4 (F := Ideal) m ρ c (Proc.devRef .tc main_arg5) = m ((c : Thread nD τ).loc main_arg5) :=
  (W4_of_ne m ρ c main_arg5 (by decide)).trans (W3_arg5 m ρ c)
theorem W5_arg5 : W5 (F := Ideal) m ρ c (Proc.devRef .tc main_arg5) = m ((c : Thread nD τ).loc main_arg5) :=
  (W5_of_ne m ρ c main_arg5 (by decide)).trans (W4_arg5 m ρ c)

end Cert.KernelIdeal.KHost
end
-- ==== Proof.KHostB.lean ====
import proofs.«116918_j58720792871577_2_alg».proof.Proof.Gen.KernelIdeal.Frame
import proofs.«116918_j58720792871577_2_alg».proof.Proof.KHost
import Idealize.ShloMosaic.Lib.StableHlo.Run
import Idealize.ShloMosaic.PureOps.Ideal
import Idealize.ShloMosaic.Lib.ValueIdx

set_option maxRecDepth 16384

noncomputable section

/-!
  The stretch of host operations between regions 0 and 1 of the idealized kernel program: the first layer's aggregate and bias row.
-/
namespace Cert.KernelIdeal.KHost

open Cert.KernelIdeal Cert.KernelIdeal.Gen Cert.Gcn
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- The aggregate: the rows of the scaled features, as the stretch finds them, gathered through the wrapped sources
    and scattered, adding, through the destinations into zeros. -/
theorem W3_agg : (W3 (F := Ideal) m ρ c (Proc.devRef .tc main_v23) : S50000x256.Idx → EReal)
    = agg256 (W2 m ρ c (Proc.devRef .tc main_v13)) (W2 m ρ c (Proc.devRef .tc main_v3)) (W2 m ρ c (Proc.devRef .tc main_v6)) := by
  show StableHlo.after hostOps1 (W2 m ρ c) (Proc.devRef .tc main_v23) = _
  after_results
  rfl

/-- The bias laid out as a row. -/
theorem W3_bias : (W3 (F := Ideal) m ρ c (Proc.devRef .tc main_v24) : S1x256.Idx → EReal)
    = shapeCast S1x256 (W2 m ρ c (Proc.devRef .tc main_arg3)) shapeCasts_S256_S1x256 := by
  show StableHlo.after hostOps1 (W2 m ρ c) (Proc.devRef .tc main_v24) = _
  after_results
  rfl

/-- The stretch leaves the reciprocal-square-root column alone. -/
theorem W3_dinv : W3 (F := Ideal) m ρ c (Proc.devRef .tc main_v12) = W2 m ρ c (Proc.devRef .tc main_v12) :=
  StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KHost
end
-- ==== Proof.KHostC.lean ====
import proofs.«116918_j58720792871577_2_alg».proof.Proof.Gen.KernelIdeal.Frame
import proofs.«116918_j58720792871577_2_alg».proof.Proof.KHost
import Idealize.ShloMosaic.Lib.StableHlo.Run
import Idealize.ShloMosaic.PureOps.Ideal
import Idealize.ShloMosaic.Lib.ValueIdx

set_option maxRecDepth 16384

noncomputable section

/-!
  The stretch of host operations between regions 2 and 3 of the idealized kernel program: the second layer's aggregate and bias row.
-/
namespace Cert.KernelIdeal.KHost

open Cert.KernelIdeal Cert.KernelIdeal.Gen Cert.Gcn
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- The aggregate: the rows of the scaled features, as the stretch finds them, gathered through the wrapped sources
    and scattered, adding, through the destinations into zeros. -/
theorem W6_agg : (W6 (F := Ideal) m ρ c (Proc.devRef .tc main_v36) : S50000x128.Idx → EReal)
    = agg128 (W5 m ρ c (Proc.devRef .tc main_v26)) (W5 m ρ c (Proc.devRef .tc main_v3)) (W5 m ρ c (Proc.devRef .tc main_v6)) := by
  show StableHlo.after hostOps3 (W5 m ρ c) (Proc.devRef .tc main_v36) = _
  after_results
  rfl

/-- The bias laid out as a row. -/
theorem W6_bias : (W6 (F := Ideal) m ρ c (Proc.devRef .tc main_v37) : S1x128.Idx → EReal)
    = shapeCast S1x128 (W5 m ρ c (Proc.devRef .tc main_arg5)) shapeCasts_S128_S1x128 := by
  show StableHlo.after hostOps3 (W5 m ρ c) (Proc.devRef .tc main_v37) = _
  after_results
  rfl

/-- The stretch leaves the reciprocal-square-root column alone. -/
theorem W6_dinv : W6 (F := Ideal) m ρ c (Proc.devRef .tc main_v12) = W5 m ρ c (Proc.devRef .tc main_v12) :=
  StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KHost
end
-- ==== Proof.Spec.lean ====
/-
  A two-layer graph convolution read index by index, in the two arrangements the two programs compute it in.

  The graph is given by two columns of `E` integer indices over `N` nodes. A row GATHER through a column reads, for
  edge `e`, the row whose number is the column's entry read as a signed integer and clamped into `[0, N - 1]`
  (`rowAt`). An accumulating row SCATTER through a column adds edge `e`'s row into the row whose number is the
  column's entry read as a signed integer, and drops the edge when that number is outside `[0, N)`; so node `n`
  receives the edges of `landing n`. The in-degree of `n` is the sum of a unit weight `u` over `landing n`, folded into
  the zero the accumulator starts from, and `dinv n` is its reciprocal square root.

  One layer sends features `X` (node by feature), a weight matrix `B` and a bias `b` to
      out n j = ∑_{e lands at n} (X·B)(src e, j) · dinv(src e) · dinv(n) + b j.
  The kernel multiplies by `dinv(src e)` before the scatter and by `dinv n` once after it (`kLayer`); the
  reference multiplies every edge's row by the product `dinv(src e) · dinv(dst e)` before the scatter (`rLayer`),
  where `dst e` is read through a second, gathered column. Two layers with `max · 0` between them are `kOut`, `rOut`.
-/
import Idealize.ShloMosaic.PureOps.Ideal
import Idealize.ShloMosaic.Lib.ValueIdx

open scoped BigOperators

noncomputable section

namespace Cert.Gcn

open Idealize.ShloMosaic Idealize.ShloMosaic.ValueIdx

variable {N E K K' D : Nat}

/-- The node whose row edge `e` gathers: the edge's entry of the index column, read as a signed integer and clamped
    into `[0, N - 1]`. -/
def rowAt (hN : 0 < N) (ic : IVec ⟨2, ![E, 1]⟩ 32) (e : Fin E) : Fin N :=
  ⟨min (ic (ix2 e (0 : Fin 1))).toInt.toNat (N - 1), by omega⟩

/-- The edges landing at node `n`: those whose entry of the index column, read as a signed integer, is `n`. -/
def landing (ic : IVec ⟨2, ![E, 1]⟩ 32) (n : Fin N) : Finset (Fin E) :=
  Finset.univ.filter fun e : Fin E => (ic (ix2 e (0 : Fin 1))).toInt = (n.val : ℤ)

/-- The in-degree of `n` with unit weight `u` per edge, folded into the zero the accumulator starts from. -/
def degree (u : EReal) (ic : IVec ⟨2, ![E, 1]⟩ 32) (n : Fin N) : EReal :=
  0 + ∑ _e ∈ landing ic n, u

/-- The reciprocal square root of the in-degree. -/
def dinv (u : EReal) (ic : IVec ⟨2, ![E, 1]⟩ 32) (n : Fin N) : EReal :=
  Ideal.rsqrt (degree u ic n)

/-- One layer as the kernel arranges it: each gathered row of `X·B` is scaled by its source's `dinv` before the
    scatter, and the aggregate by the receiving node's `dinv` after it; then the bias. -/
def kLayer (hN : 0 < N) (u : EReal) (si di : IVec ⟨2, ![E, 1]⟩ 32) (X : Fin N → Fin K → EReal) (B : Fin K → Fin D → EReal)
    (b : Fin D → EReal) (n : Fin N) (j : Fin D) : EReal :=
  dinv u di n * (0 + ∑ e ∈ landing di n, (∑ k : Fin K, X (rowAt hN si e) k * B k j) * dinv u di (rowAt hN si e)) + b j

/-- One layer as the reference arranges it: each gathered row of `X·B` is scaled by the product of its source's and
    its destination's `dinv` (the destination read through the gathered column `di'`) before the scatter; then the bias. -/
def rLayer (hN : 0 < N) (u : EReal) (si di di' : IVec ⟨2, ![E, 1]⟩ 32) (X : Fin N → Fin K → EReal) (B : Fin K → Fin D → EReal)
    (b : Fin D → EReal) (n : Fin N) (j : Fin D) : EReal :=
  (0 + ∑ e ∈ landing di n, (∑ k : Fin K, X (rowAt hN si e) k * B k j)
      * (dinv u di (rowAt hN si e) * dinv u di (rowAt hN di' e))) + b j

/-- Two layers, the first followed by `max · 0`, as the kernel arranges them. -/
def kOut (hN : 0 < N) (u : EReal) (si di : IVec ⟨2, ![E, 1]⟩ 32) (x : Fin N → Fin K → EReal) (W1 : Fin K → Fin K' → EReal)
    (b1 : Fin K' → EReal) (W2 : Fin K' → Fin D → EReal) (b2 : Fin D → EReal) (n : Fin N) (j : Fin D) : EReal :=
  kLayer hN u si di (fun r k => max (kLayer hN u si di x W1 b1 r k) 0) W2 b2 n j

/-- Two layers, the first followed by `max · 0`, as the reference arranges them. -/
def rOut (hN : 0 < N) (u : EReal) (si di di' : IVec ⟨2, ![E, 1]⟩ 32) (x : Fin N → Fin K → EReal) (W1 : Fin K → Fin K' → EReal)
    (b1 : Fin K' → EReal) (W2 : Fin K' → Fin D → EReal) (b2 : Fin D → EReal) (n : Fin N) (j : Fin D) : EReal :=
  rLayer hN u si di di' (fun r k => max (rLayer hN u si di di' x W1 b1 r k) 0) W2 b2 n j

end Cert.Gcn

end
-- ==== Proof.IndexFacts.lean ====
/-
  Facts about the graph's index columns.

  The destinations' vector is row 1 of the edge list followed by the self-loops `0, 1, …, 49999`: its entry at
  position `800000 + n` is the word of `n`, which read as a signed 32-bit integer is `n` again (`n < 50000 < 2^31`).
  So every node receives at least its own self-loop. An entry that reads `n ≥ 0` as a signed integer is not negative,
  so wrapping keeps it; and clamping `n < 50000` into `[0, 49999]` keeps it too: the wrapped destination column, read
  at an edge that lands at `n`, gathers row `n`.
-/
import proofs.«116918_j58720792871577_2_alg».proof.Proof.Spec
import proofs.«116918_j58720792871577_2_alg».proof.Proof.IndexCols
import Idealize.ShloMosaic.Lib.ValueIdx
import Idealize.ShloMosaic.Lib.Pipeline.Value
import Idealize.ShloMosaic.Lib.ValueLayout
import Idealize.ShloMosaic.Lib.IdealHost

noncomputable section

namespace Cert.Gcn

open Idealize.ShloMosaic Idealize.ShloMosaic.ValueIdx Cert.KernelIdeal Cert.KernelIdeal.Gen

/-- A column reads, at `(e, 0)`, the vector at `e`. -/
theorem col_apply (v : IVec S850000 32) (e : Fin 850000) : col v (ix2 e (0 : Fin 1)) = v (ix1 e) := by
  unfold col
  refine broadcastInDim_apply _ _ v _ (ix1 e) fun a => ?_
  obtain rfl : a = 0 := Subsingleton.elim _ _
  rfl

/-- The word of a number below `2^31`, read as a signed 32-bit integer, is that number. -/
theorem toInt_ofNat32 (n : Nat) (hn : n < 2 ^ 31) : (BitVec.ofNat 32 n).toInt = (n : ℤ) := by
  have hm : (BitVec.ofNat 32 n).toNat = n := by
    rw [BitVec.toNat_ofNat]; exact Nat.mod_eq_of_lt (by omega)
  rw [BitVec.toInt_eq_toNat_of_lt (by rw [hm]; omega), hm]

/-- Position `800000 + n` of row `r` followed by the self-loops holds the word of `n`. -/
theorem edgeVec_selfLoop (r : Nat) (h : S2x800000.Slices ![r, 0] S1x800000) (a : IVec S2x800000 32) (n : Fin 50000) :
    edgeVec r h a (ix1 (⟨800000 + n.val, by omega⟩ : Fin 850000)) = BitVec.ofNat 32 n.val := by
  unfold edgeVec
  refine (concatenate_pair_apply_right (t := S850000) (s₁ := S800000) (s₂ := S50000) (0 : Fin 1) _ _
    concatenates_S800000_S50000_S850000_d0 _ rfl rfl (ix1 n) ?_ ?_).trans ?_
  · intro b hb
    exact absurd (Subsingleton.elim _ _) hb
  · show n.val + 800000 = 800000 + n.val
    omega
  · rfl

/-- THE SELF-LOOP OF n LANDS AT n: edge `800000 + n` of the destination column reads `n`. -/
theorem landing_selfLoop (a : IVec Cert.KernelIdeal.S2x800000 32) (n : Fin 50000) : (landing (dstCol a) n).Nonempty := by
  refine ⟨(⟨800000 + n.val, by omega⟩ : Fin 850000), Finset.mem_filter.mpr ⟨Finset.mem_univ _, ?_⟩⟩
  unfold dstCol dstVec
  rw [col_apply, edgeVec_selfLoop]
  exact toInt_ofNat32 n.val (by omega)

/-- Wrapping keeps an entry that is not negative as a signed integer. -/
theorem wrapVec_apply_of_nonneg (v : IVec S850000 32) (i : S850000.Idx) (h : 0 ≤ (v i).toInt) : wrapVec v i = v i := by
  unfold wrapVec
  rw [select_apply]
  have hc : cmpi .slt v (broadcastInDim S850000 ![] bcast_S_S850000 (constantI S_ 32 0#32)) i = 0#1 := by
    show IntOp.cmpi .slt (v i) (broadcastInDim S850000 ![] bcast_S_S850000 (constantI S_ 32 0#32) i) = 0#1
    rw [broadcastInDim_scalar_apply]
    show BitVec.ofBool ((v i).slt 0#32) = 0#1
    rw [BitVec.slt_eq_decide, BitVec.toInt_zero, decide_eq_false (by omega)]
    rfl
  rw [hc, select_zero]

/-- THE WRAPPED DESTINATION COLUMN AT AN EDGE THAT LANDS AT n GATHERS ROW n. -/
theorem rowAt_dstWrapCol_of_landing (a : IVec Cert.KernelIdeal.S2x800000 32) (n : Fin 50000) (e : Fin 850000)
    (he : e ∈ landing (dstCol a) n) : rowAt (by decide : 0 < 50000) (dstWrapCol a) e = n := by
  have hv : ((dstVec a) (ix1 e)).toInt = (n.val : ℤ) := by
    have := (Finset.mem_filter.mp he).2
    unfold dstCol at this
    rwa [col_apply] at this
  unfold rowAt
  refine Fin.ext ?_
  show min ((dstWrapCol a) (ix2 e (0 : Fin 1))).toInt.toNat (50000 - 1) = n.val
  unfold dstWrapCol
  rw [col_apply, wrapVec_apply_of_nonneg _ _ (by rw [hv]; omega), hv]
  have := n.isLt
  omega

/-- THE WORD OF 1.0 denotes the real 1. -/
theorem unit_f32 : Ideal.ofBits .f32 0x3F800000#32 = ((1 : ℝ) : EReal) := by
  simp [Ideal.ofBits, Ideal.ieee, -EReal.coe_mul]; norm_num

end Cert.Gcn
-- ==== Proof.LibRowGatherScatter.lean ====
/-
  Row gather and accumulating row scatter, read at an index.

  For a matrix `x : [N, D]` and a column of integer indices `idx : [E, 1]`:

  * the row gather (offset axis 1 of the result, collapsed axis 0 of the operand, start index map `[0]`, index vector
    axis 1, slice sizes `[1, D]`) has at `(e, c)` the element of `x` in column `c` of row `idx[e, 0]`, the start
    index read as a signed integer and clamped into `[0, N - 1]`;
  * the row scatter (window axis 1 of the updates, inserted axis 0 of the operand, scatter map `[0]`, index vector
    axis 1) sends update element `(e, c)` to operand element `(idx[e, 0], c)`, the start index read as a signed integer
    and NOT clamped: the update is dropped when that row is outside `[0, N)`. With an adding body, operand element
    `(n, c)` therefore receives the sum of `upd (e, c)` over the `e` whose start index equals `n`.
-/
import Idealize.ShloMosaic.PureOps.Ideal
import Idealize.ShloMosaic.Lib.ValueIdx
open scoped BigOperators
noncomputable section
namespace Cert.RowOps
open Idealize.ShloMosaic Idealize.ShloMosaic.ValueIdx

/-- the dimension numbers of a row gather -/
abbrev rowGatherDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, c) -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- the dimension numbers of a row scatter -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coordinates
variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the start is the start index `idx[e, 0]` read signed. -/
theorem rowScatter_start0 :
    (rowScatterDims N E D wf).start (ix2 e c) idx (0 : Fin 2) = (idx (ix2 e (0 : Fin 1))).toInt := by
  unfold ScatterDims.start
  rw [dif_pos (show (0 : Fin 2) ∈ ([0] : List (Fin 2)) by decide)]
  have hsi : (rowScatterDims N E D wf).siIdx (ix2 e c) ⟨List.idxOf (0 : Fin 2) (rowScatterDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter map does not name, the start is 0. -/
theorem rowScatter_start1 : (rowScatterDims N E D wf).start (ix2 e c) idx (1 : Fin 2) = 0 := by
  unfold ScatterDims.start
  rw [dif_neg (show (1 : Fin 2) ∉ ([0] : List (Fin 2)) by decide)]

/-- The row axis is inserted: its window coordinate is 0. -/
theorem rowScatter_window0 : (rowScatterDims N E D wf).window (ix2 e c) (0 : Fin 2) = 0 := rfl

/-- The column axis carries the update's column. -/
theorem rowScatter_window1 : (rowScatterDims N E D wf).window (ix2 e c) (1 : Fin 2) = c.val := rfl

end Coordinates

/-- where update element (e, c) lands -/
theorem rowScatter_resultIdx_iff {N E D w : Nat} (wf : ScatterDims.WF ⟨2, ![N, D]⟩ ⟨2, ![E, 1]⟩ ⟨2, ![E, D]⟩ [1] [0] [0] 1)
    (idx : IVec ⟨2, ![E, 1]⟩ w) (e : Fin E) (c : Fin D) (n : Fin N) (c' : Fin D) :
    (rowScatterDims N E D wf).resultIdx? (ix2 e c) idx = some (ix2 n c') ↔ ((idx (ix2 e (0 : Fin 1))).toInt = (n.val : ℤ) ∧ c = c') := by
  have s0 := rowScatter_start0 wf idx e c
  have s1 := rowScatter_start1 wf idx e c
  have w0 := rowScatter_window0 wf e c
  have w1 := rowScatter_window1 wf e c
  unfold ScatterDims.resultIdx?
  split
  · rename_i h
    rw [Option.some.injEq]
    constructor
    · intro hEq
      have e0 : ((rowScatterDims N E D wf).start (ix2 e c) idx (0 : Fin 2)
          + ((rowScatterDims N E D wf).window (ix2 e c) (0 : Fin 2) : ℤ)).toNat = n.val :=
        congrArg Fin.val (congrFun hEq (0 : Fin 2))
      have e1 : ((rowScatterDims N E D wf).start (ix2 e c) idx (1 : Fin 2)
          + ((rowScatterDims N E D wf).window (ix2 e c) (1 : Fin 2) : ℤ)).toNat = c'.val :=
        congrArg Fin.val (congrFun hEq (1 : Fin 2))
      have h0 := (h (0 : Fin 2)).1
      rw [s0, w0] at e0 h0
      rw [s1, w1] at e1
      refine ⟨by omega, Fin.ext (by omega)⟩
    · rintro ⟨hn, rfl⟩
      funext a
      refine Fin.ext ?_
      match a with
      | ⟨0, _⟩ =>
        show ((rowScatterDims N E D wf).start (ix2 e c) idx (0 : Fin 2)
          + ((rowScatterDims N E D wf).window (ix2 e c) (0 : Fin 2) : ℤ)).toNat = n.val
        rw [s0, w0]; omega
      | ⟨1, _⟩ =>
        show ((rowScatterDims N E D wf).start (ix2 e c) idx (1 : Fin 2)
          + ((rowScatterDims N E D wf).window (ix2 e c) (1 : Fin 2) : ℤ)).toNat = c.val
        rw [s1, w1]; omega
  · rename_i h
    constructor
    · intro hEq; cases hEq
    · rintro ⟨hn, rfl⟩
      exfalso; apply h
      intro a
      match a with
      | ⟨0, _⟩ =>
        show 0 ≤ (rowScatterDims N E D wf).start (ix2 e c) idx (0 : Fin 2)
            + ((rowScatterDims N E D wf).window (ix2 e c) (0 : Fin 2) : ℤ)
          ∧ (rowScatterDims N E D wf).start (ix2 e c) idx (0 : Fin 2)
            + ((rowScatterDims N E D wf).window (ix2 e c) (0 : Fin 2) : ℤ) < (N : ℤ)
        rw [s0, w0]; have := n.isLt; omega
      | ⟨1, _⟩ =>
        show 0 ≤ (rowScatterDims N E D wf).start (ix2 e c) idx (1 : Fin 2)
            + ((rowScatterDims N E D wf).window (ix2 e c) (1 : Fin 2) : ℤ)
          ∧ (rowScatterDims N E D wf).start (ix2 e c) idx (1 : Fin 2)
            + ((rowScatterDims N E D wf).window (ix2 e c) (1 : Fin 2) : ℤ) < (D : ℤ)
        rw [s1, w1]; have := c.isLt; omega

/-- THE ACCUMULATING ROW SCATTER AT THE IDEAL INSTANCE READ AT (n, c) -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal) (n : Fin N) (c : Fin D) :
    Ideal.hostScatterAdd (rowScatterDims N E D wf) x idx upd (ix2 n c)
      = x (ix2 n c) + ∑ e ∈ Finset.univ.filter (fun e : Fin E => (idx (ix2 e (0 : Fin 1))).toInt = (n.val : ℤ)), upd (ix2 e c) := by
  unfold Ideal.hostScatterAdd
  congr 1
  rw [Finset.sum_filter, sum_idx2, Finset.sum_filter]
  refine Finset.sum_congr rfl fun e _ => ?_
  simp only [rowScatter_resultIdx_iff wf idx e _ n c]
  by_cases he : (idx (ix2 e (0 : Fin 1))).toInt = (n.val : ℤ)
  · simp only [he, true_and, if_true]
    rw [Finset.sum_ite_eq' Finset.univ c (fun c'' => upd (ix2 e c''))]
    simp
  · simp only [he, false_and, if_false]
    exact Finset.sum_const_zero
end Cert.RowOps
-- ==== Proof.LibVecGatherScatter.lean ====
/-
  Vector gather and accumulating vector scatter, read at an index.

  For a vector `x : [N]` and a column of integer indices `idx : [E, 1]`:

  * the gather (no offset axis, collapsed axis 0 of the operand, start index map `[0]`, index vector axis 1, slice
    sizes `[1]`) has at `e` the element of `x` at position `idx[e, 0]`, the start index read as a signed integer and
    clamped into `[0, N - 1]`;
  * the scatter (no window axis, inserted axis 0 of the operand, scatter map `[0]`, index vector axis 1) sends update
    element `e` to operand element `idx[e, 0]`, the start index read as a signed integer and NOT clamped: the update
    is dropped when that position is outside `[0, N)`. With an adding body, operand element `n` therefore receives
    the sum of `upd e` over the `e` whose start index equals `n`.
-/
import Idealize.ShloMosaic.PureOps.Ideal
import Idealize.ShloMosaic.Lib.ValueIdx
open scoped BigOperators
noncomputable section
namespace Cert.VecOps
open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- the dimension numbers of a vector gather `x[idx]` -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the operand at the start index `idx[e, 0]`, read signed and clamped into
    `[0, N - 1]`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- the dimension numbers of a vector scatter -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the start is the start index `idx[e, 0]` read signed. -/
theorem vecScatter_start0 :
    (vecScatterDims N E wf).start (ix1 e) idx (0 : Fin 1) = (idx (ix2 e (0 : Fin 1))).toInt := by
  unfold ScatterDims.start
  rw [dif_pos (show (0 : Fin 1) ∈ ([0] : List (Fin 1)) by decide)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
theorem vecScatter_window0 : (vecScatterDims N E wf).window (ix1 e) (0 : Fin 1) = 0 := rfl

end Coordinates

/-- where update element e lands -/
theorem vecScatter_resultIdx_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e (0 : Fin 1))).toInt = (n.val : ℤ) := by
  have s0 := vecScatter_start0 wf idx e
  have w0 := vecScatter_window0 wf e
  unfold ScatterDims.resultIdx?
  split
  · rename_i h
    rw [Option.some.injEq]
    constructor
    · intro hEq
      have e0 : ((vecScatterDims N E wf).start (ix1 e) idx (0 : Fin 1)
          + ((vecScatterDims N E wf).window (ix1 e) (0 : Fin 1) : ℤ)).toNat = n.val :=
        congrArg Fin.val (congrFun hEq (0 : Fin 1))
      have h0 := (h (0 : Fin 1)).1
      rw [s0, w0] at e0 h0
      omega
    · intro hn
      funext a
      obtain rfl : a = 0 := Subsingleton.elim _ _
      refine Fin.ext ?_
      show ((vecScatterDims N E wf).start (ix1 e) idx (0 : Fin 1)
        + ((vecScatterDims N E wf).window (ix1 e) (0 : Fin 1) : ℤ)).toNat = n.val
      rw [s0, w0]; omega
  · rename_i h
    constructor
    · intro hEq; cases hEq
    · intro hn
      exfalso; apply h
      intro a
      obtain rfl : a = 0 := Subsingleton.elim _ _
      show 0 ≤ (vecScatterDims N E wf).start (ix1 e) idx (0 : Fin 1)
          + ((vecScatterDims N E wf).window (ix1 e) (0 : Fin 1) : ℤ)
        ∧ (vecScatterDims N E wf).start (ix1 e) idx (0 : Fin 1)
          + ((vecScatterDims N E wf).window (ix1 e) (0 : Fin 1) : ℤ) < (N : ℤ)
      rw [s0, w0]; have := n.isLt; omega

/-- THE ACCUMULATING VECTOR SCATTER AT THE IDEAL INSTANCE READ AT n -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, sum_idx1, Finset.sum_filter]
  refine Finset.sum_congr rfl fun e _ => ?_
  simp only [vecScatter_resultIdx_iff wf idx e n]
end Cert.VecOps
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KReads.lean ====
import proofs.«116918_j58720792871577_2_alg».proof.Proof.KHost
import proofs.«116918_j58720792871577_2_alg».proof.Proof.Spec
import proofs.«116918_j58720792871577_2_alg».proof.Proof.IndexCols
import proofs.«116918_j58720792871577_2_alg».proof.Proof.IndexFacts
import proofs.«116918_j58720792871577_2_alg».proof.Proof.LibRowGatherScatter
import proofs.«116918_j58720792871577_2_alg».proof.Proof.LibVecGatherScatter
import proofs.«116918_j58720792871577_2_alg».proof.Proof.LibKeepdims
import Idealize.ShloMosaic.Lib.IdealHost
import Idealize.ShloMosaic.Lib.ValueIdx
import Idealize.ShloMosaic.Lib.Pipeline.Value
import Idealize.ShloMosaic.PureOps.Ideal.Laws

set_option maxRecDepth 16384

open scoped BigOperators

noncomputable section

/-!
  The host stretches' arrays read at an index.

  The in-degree of node `n` is zero plus one unit per edge landing at `n`; its reciprocal square root sits at `(n, 0)`
  of the column. Element `(n, j)` of an aggregate is zero plus, over the edges landing at `n`, element `j` of the row
  the edge's wrapped source names. A vector of `D` numbers laid out as a `[1, D]` row keeps entry `j` at `(0, j)`:
  both have row-major position `j`.
-/
namespace Cert.KernelIdeal.KHost

open Cert.KernelIdeal Cert.KernelIdeal.Gen Cert.Gcn
open Idealize.ShloMosaic Idealize.ShloMosaic.ValueIdx

/-- The zero word, broadcast from a scalar to any shape, reads `0` everywhere. -/
theorem zeros_apply {T : Shape} (h : S_.BroadcastsInDim T ![]) (i : T.Idx) :
    broadcastInDim T ![] h (constant (F := Ideal) S_ .f32 0x00000000#32) i = (0 : EReal) := by
  rw [broadcastInDim_scalar_apply]
  exact Ideal.ofBits_zero_f32

/-- A word broadcast from a scalar to any shape reads, everywhere, the extended real the word denotes. -/
theorem splat_apply {T : Shape} (h : S_.BroadcastsInDim T ![]) (b : BitVec 32) (i : T.Idx) :
    broadcastInDim T ![] h (constant (F := Ideal) S_ .f32 b) i = Ideal.ofBits .f32 b := by
  rw [broadcastInDim_scalar_apply]
  rfl

/-- At the ideal instance the host's accumulating scatter is the exact sum. -/
theorem scatterAdd_ideal {s si su : Shape} {w : Nat} (d : ScatterDims s si su) (x : FVec Ideal s .f32) (idx : IVec si w)
    (upd : FVec Ideal su .f32) : Host.scatterAdd (F := Ideal) d x idx upd = Ideal.hostScatterAdd d x idx upd := rfl

/-- The vector scatter's printed dimension numbers are the general vector scatter's. -/
theorem vecScatter_eq : scatter_S50000_S850000x1_S850000_n_0_0_1
    = Cert.VecOps.vecScatterDims 50000 850000 scatter_S50000_S850000x1_S850000_n_0_0_1_wf := rfl

/-- THE IN-DEGREE VECTOR AT n: zero plus one unit per edge landing at `n`. -/
theorem degVec_apply (a : IVec S2x800000 32) (n : Fin 50000) :
    degVec a (ix1 n) = Cert.Gcn.degree (Ideal.ofBits .f32 0x3F800000#32) (Cert.Gcn.dstCol a) n := by
  unfold degVec
  rw [scatterAdd_ideal, vecScatter_eq, Cert.VecOps.vecScatterAdd_apply, zeros_apply]
  unfold Cert.Gcn.degree Cert.Gcn.landing
  refine congrArg (fun t : EReal => (0 : EReal) + t) (Finset.sum_congr rfl fun e _ => ?_)
  exact splat_apply _ _ _

/-- At the ideal instance the host's reciprocal square root of a vector reads, at an index, the reciprocal square root
    of the entry. -/
theorem hostRsqrt_ideal_apply {s : Shape} (v : FVec Ideal s .f32) (i : s.Idx) :
    Host.rsqrt (F := Ideal) v i = Ideal.rsqrt (v i) := rfl

/-- THE COLUMN OF RECIPROCAL SQUARE ROOTS AT (n, 0) -/
theorem dinvCol_apply (a : IVec S2x800000 32) (n : Fin 50000) (z : Fin 1) :
    dinvCol a (ix2 n z) = Cert.Gcn.dinv (Ideal.ofBits .f32 0x3F800000#32) (Cert.Gcn.dstCol a) n := by
  unfold dinvCol
  rw [Idealize.ShloMosaic.Keepdims.shapeCast_a_a1_apply, hostRsqrt_ideal_apply, degVec_apply]
  unfold Cert.Gcn.dinv
  rfl

/-- The 256-wide row scatter's printed dimension numbers are the general row scatter's. -/
theorem rowScatter256_eq : scatter_S50000x256_S850000x1_S850000x256_1_0_0_1
    = Cert.RowOps.rowScatterDims 50000 850000 256 scatter_S50000x256_S850000x1_S850000x256_1_0_0_1_wf := rfl

/-- The 256-wide row gather's printed dimension numbers are the general row gather's. -/
theorem rowGather256_eq : gather_S50000x256_S850000x1_S850000x256_1_0_n_n_0_1_1256
    = Cert.RowOps.rowGatherDims 50000 850000 256 gather_S50000x256_S850000x1_S850000x256_1_0_n_n_0_1_1256_wf := rfl

/-- THE 256-WIDE AGGREGATE AT (n, j) -/
theorem agg256_apply (hs : FVec Ideal S50000x256 .f32) (sv dv : IVec S850000 32) (n : Fin 50000) (j : Fin 256) :
    agg256 hs sv dv (ix2 n j)
      = 0 + ∑ e ∈ Cert.Gcn.landing (Cert.Gcn.col dv) n,
          hs (ix2 (Cert.Gcn.rowAt (by decide : 0 < 50000) (Cert.Gcn.col (Cert.Gcn.wrapVec sv)) e) j) := by
  unfold agg256
  rw [scatterAdd_ideal, rowScatter256_eq, rowGather256_eq, Cert.RowOps.rowScatterAdd_apply, zeros_apply]
  unfold Cert.Gcn.landing Cert.Gcn.rowAt
  refine congrArg (fun t : EReal => (0 : EReal) + t) (Finset.sum_congr rfl fun e _ => ?_)
  exact Cert.RowOps.rowGather_apply (by decide) _ hs (col (wrapVec sv)) e j

/-- The 128-wide row scatter's printed dimension numbers are the general row scatter's. -/
theorem rowScatter128_eq : scatter_S50000x128_S850000x1_S850000x128_1_0_0_1
    = Cert.RowOps.rowScatterDims 50000 850000 128 scatter_S50000x128_S850000x1_S850000x128_1_0_0_1_wf := rfl

/-- The 128-wide row gather's printed dimension numbers are the general row gather's. -/
theorem rowGather128_eq : gather_S50000x128_S850000x1_S850000x128_1_0_n_n_0_1_1128
    = Cert.RowOps.rowGatherDims 50000 850000 128 gather_S50000x128_S850000x1_S850000x128_1_0_n_n_0_1_1128_wf := rfl

/-- THE 128-WIDE AGGREGATE AT (n, j) -/
theorem agg128_apply (hs : FVec Ideal S50000x128 .f32) (sv dv : IVec S850000 32) (n : Fin 50000) (j : Fin 128) :
    agg128 hs sv dv (ix2 n j)
      = 0 + ∑ e ∈ Cert.Gcn.landing (Cert.Gcn.col dv) n,
          hs (ix2 (Cert.Gcn.rowAt (by decide : 0 < 50000) (Cert.Gcn.col (Cert.Gcn.wrapVec sv)) e) j) := by
  unfold agg128
  rw [scatterAdd_ideal, rowScatter128_eq, rowGather128_eq, Cert.RowOps.rowScatterAdd_apply, zeros_apply]
  unfold Cert.Gcn.landing Cert.Gcn.rowAt
  refine congrArg (fun t : EReal => (0 : EReal) + t) (Finset.sum_congr rfl fun e _ => ?_)
  exact Cert.RowOps.rowGather_apply (by decide) _ hs (col (wrapVec sv)) e j

/-- A `[D]` vector laid out as a `[1, D]` row reads, at `(z, j)`, the operand at `j`: row-major position `0 · D + j`. -/
theorem row_1D_apply {α : Type} {D : ℕ} (x : (⟨1, ![D]⟩ : Shape).Idx → α) (h : (⟨1, ![D]⟩ : Shape).ShapeCasts ⟨2, ![1, D]⟩)
    (j : Fin D) (z : Fin 1) : shapeCast ⟨2, ![1, D]⟩ x h (ix2 z j) = x (ix1 j) :=
  shapeCast_apply x h _ _ (by
    have hz : z.val = 0 := by omega
    rw [Shape.rowMajor_val_two, Shape.rowMajor_val_one]
    show j.val = z.val * D + j.val
    rw [hz, Nat.zero_mul, Nat.zero_add])

/-- THE 256-WIDE BIAS ROW AT (0, j) -/
theorem biasRow256_apply (b : FVec Ideal S256 .f32) (j : Fin 256) (z : Fin 1) :
    shapeCast S1x256 b shapeCasts_S256_S1x256 (ix2 z j) = b (ix1 j) :=
  row_1D_apply b shapeCasts_S256_S1x256 j z

/-- THE 128-WIDE BIAS ROW AT (0, j) -/
theorem biasRow128_apply (b : FVec Ideal S128 .f32) (j : Fin 128) (z : Fin 1) :
    shapeCast S1x128 b shapeCasts_S128_S1x128 (ix2 z j) = b (ix1 j) :=
  row_1D_apply b shapeCasts_S128_S1x128 j z

end Cert.KernelIdeal.KHost
end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionMatmulScaleA.lean ====
/-
  The first matmul-and-scale region, as one function of whole arrays.

  Each of the 25 grid points takes 2000 rows of the left array `x : [50000, 512]`, the whole right matrix
  `w : [512, 256]` and the same 2000 rows of the column `d : [50000, 1]`, and leaves in its output tile, at `(p, q)`,
  the sum over `k` of `x(p, k) · w(k, q)` times `d(p, 0)`. The output tiles are the 25 blocks of 2000 rows of the
  `[50000, 256]` output array, so the array ends holding, at `(r, j)`, the sum over `k` of `x(r, k) · w(k, j)` times
  `d(r, 0)`, of the three arrays as the region finds them.
-/
import proofs.«116918_j58720792871577_2_alg».proof.Proof.Gen.KernelIdeal.Frame
import proofs.«116918_j58720792871577_2_alg».proof.Proof.LibKeepdims
import proofs.«116918_j58720792871577_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

set_option maxRecDepth 16384

open scoped BigOperators

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer rectangle, however spelt. -/
theorem zeroOffsets : (![0, 0] : Fin 2 → Nat) = fun _ => 0 := funext fun a => by fin_cases a <;> rfl

/-! ## Region 0: the product of `x` tiles with `w`, each row scaled by its entry of the column -/

/-- The printed contraction record is the plain `[M,K] × [K,N]` one. -/
theorem dot0_eq : dot_S2000x512_S512x256_S2000x256_1_0_0_1_n_n = DotDims.plain 2000 512 256 := rfl

/-- The tile's payload at `(p, q)`: row `p` of the left tile times column `q` of the right matrix, times the
    column's entry of row `p`. At the ideal values the narrowing of the operands to bf16 changes nothing and the
    zero accumulator adds nothing. -/
theorem scaledProduct0_apply (x : Vec Ideal S2000x512 .f32) (w : Vec Ideal S512x256 .f32) (d : Vec Ideal S2000x1 .f32)
    (p : Fin 2000) (q : Fin 256) :
    k0_pay1 (F := Ideal) x w d (ix2 p q) = (∑ k : Fin 512, x (ix2 p k) * w (ix2 k q)) * d (ix2 p (0 : Fin 1)) := by
  unfold k0_pay1
  rw [mulf_apply, shapeCast_self, Keepdims.broadcastTo_a1_ab_apply d _ p q (0 : Fin 1), dot0_eq,
    Cert.MatOps.matmul_plain_zero_apply]
  rfl

/-- The whole-array function: `(x · w)` with row `r` scaled by `d (r, 0)`. -/
def scaledProduct0 (x : S50000x512.Idx → EReal) (w : S512x256.Idx → EReal) (d : S50000x1.Idx → EReal) :
    S50000x256.Idx → EReal := fun i =>
  (∑ k : Fin 512, x (ix2 ⟨(i 0).val, idx2_lt0 i⟩ k) * w (ix2 k ⟨(i 1).val, idx2_lt1 i⟩)) * d (ix2 ⟨(i 0).val, idx2_lt0 i⟩ (0 : Fin 1))

/-- The scaled product at explicit coordinates. -/
theorem scaledProduct0_ix2 (x : S50000x512.Idx → EReal) (w : S512x256.Idx → EReal) (d : S50000x1.Idx → EReal)
    (r : Fin 50000) (j : Fin 256) :
    scaledProduct0 x w d (ix2 r j) = (∑ k : Fin 512, x (ix2 r k) * w (ix2 k j)) * d (ix2 r (0 : Fin 1)) := rfl

/-- The index maps over the grid: the row-tiled windows are at block `(t, 0)`, the right matrix at `(0, 0)`. -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- Every row tile is some point's. -/
theorem tileOnto0 : ∀ q : Fin 25, ∃ t : Fin cfg0.N, t.val = q.val :=
  (by decide +kernel : ∀ q : Fin 25, ∃ t : Fin grid0.N, t.val = q.val)

section
variable (V : (c : Dev nD) → (b : Ref sig .tc) → Buf (Elt Ideal) ((c : Thread nD τ).loc b))

/-- The left tile at point `t` is rows `2000 t … 2000 t + 1999` of the left array. -/
theorem leftTile0_apply (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c (Pipeline.arrRef spec0 0) : S50000x512.Idx → EReal) i := by
  obtain ⟨e0, e1, -⟩ := tileIndex0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

end

section
variable (V : (c : Dev nD) → (b : Ref sig .tc) → Buf (Elt Ideal) ((c : Thread nD τ).loc b))

/-- The right matrix's block at every point is the whole right array. -/
theorem rightMatrix0_apply (c : Dev nD) (t : Fin cfg0.N) (y : S512x256.Idx) (i : S512x256.Idx)
    (h0 : (i 0).val = (y 0).val) (h1 : (i 1).val = (y 1).val) :
    (iblk0 V c 1 t : Vec Ideal S512x256 .f32) y = (V c (Pipeline.arrRef spec0 1) : S512x256.Idx → EReal) i := by
  obtain ⟨-, -, e0, e1, -⟩ := tileIndex0 t
  unfold iblk0
  rw [View.read_apply]
  show V c main_arg2 _ = V c main_arg2 _
  refine congrArg (V c main_arg2) ?_
  funext a
  apply Fin.ext
  match a with
  | ⟨0, _⟩ => show win0_1.index t (0 : Fin 2) * 512 + 1 * (y 0).val = (i 0).val; rw [e0, h0]; omega
  | ⟨1, _⟩ => show win0_1.index t (1 : Fin 2) * 256 + 1 * (y 1).val = (i 1).val; rw [e1, h1]; omega

/-- The column's tile at point `t` is rows `2000 t … 2000 t + 1999` of the column. -/
theorem columnTile0_apply (c : Dev nD) (t : Fin cfg0.N) (y : S2000x1.Idx) (i : S50000x1.Idx)
    (h0 : (i 0).val = 2000 * t.val + (y 0).val) (h1 : (i 1).val = (y 1).val) :
    (iblk0 V c 2 t : Vec Ideal S2000x1 .f32) y = (V c (Pipeline.arrRef spec0 2) : S50000x1.Idx → EReal) i := by
  obtain ⟨-, -, -, -, e0, e1, -⟩ := tileIndex0 t
  unfold iblk0
  rw [View.read_apply]
  show V c main_v12 _ = V c main_v12 _
  refine congrArg (V c main_v12) ?_
  funext a
  apply Fin.ext
  match a with
  | ⟨0, _⟩ => show win0_2.index t (0 : Fin 2) * 2000 + 1 * (y 0).val = (i 0).val; rw [e0, h0]; omega
  | ⟨1, _⟩ => show win0_2.index t (1 : Fin 2) * 1 + 1 * (y 1).val = (i 1).val; rw [e1, h1]; omega

/-- What point `t` writes back is tile `t` of the scaled product of the arrays as the region finds them. -/
theorem flushed0_eq (c : Dev nD) (t : Fin cfg0.N) :
    (dat0 (F := Ideal) V c).flushed 3 t = ((cfg0.win 3).blk t).view.read (Elt Ideal)
      (scaledProduct0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOffsets]
  simp only [View.ld_unit_zero (S := S2000x512) zeroOffsets, View.ld_unit_zero (S := S512x256) zeroOffsets,
    View.ld_unit_zero (S := S2000x1) zeroOffsets]
  obtain ⟨-, -, -, -, -, -, e0, e1, -⟩ := tileIndex0 t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = scaledProduct0 _ _ _ (((cfg0.win 3).blk t).view.emb (ix2 p q))
  have hr : ((((cfg0.win 3).blk t).view.emb (ix2 p q)) 0).val = 2000 * t.val + p.val := by
    show win0_3.index t (0 : Fin 2) * 2000 + 1 * p.val = _; rw [e0]; omega
  have hc : ((((cfg0.win 3).blk t).view.emb (ix2 p q)) 1).val = q.val := by
    show win0_3.index t (1 : Fin 2) * 256 + 1 * q.val = _; rw [e1]; omega
  refine (scaledProduct0_apply _ _ _ p q).trans ?_
  unfold scaledProduct0
  refine congrArg₂ (· * ·) (Finset.sum_congr rfl fun k _ => congrArg₂ (· * ·)
    (leftTile0_apply V c t (ix2 p k) _ hr rfl) (rightMatrix0_apply V c t (ix2 k q) _ rfl hc))
    (columnTile0_apply V c t (ix2 p 0) _ hr rfl)

/-- An index of the output array is in point `t`'s tile iff each coordinate is in the tile's range on its axis. -/
theorem mem_rowTile0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v13).slice (win0_3.rect t)).set ↔ _
  rw [View.set_slice_whole, Rect.mem_set_unit]
  exact Iff.rfl

/-- Row `r` of the output is in the tile of point `r / 2000`: the 25 row tiles cover the array. -/
theorem rowTiles0_cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := tileOnto0 ⟨(i 0).val / 2000, by omega⟩
  have ht' : t.val = (i 0).val / 2000 := ht
  obtain ⟨-, -, -, -, -, -, e0, e1, -⟩ := tileIndex0 t
  refine ⟨t, flush0_3 t, ?_⟩
  rw [mem_rowTile0]
  intro a
  match a with
  | ⟨0, _⟩ =>
    show win0_3.index t (0 : Fin 2) * 2000 ≤ (i 0).val ∧ (i 0).val < win0_3.index t (0 : Fin 2) * 2000 + 2000
    rw [e0, ht']; omega
  | ⟨1, _⟩ =>
    show win0_3.index t (1 : Fin 2) * 256 ≤ (i 1).val ∧ (i 1).val < win0_3.index t (1 : Fin 2) * 256 + 256
    rw [e1]; omega

/-- THE OUTPUT ARRAY after region 0: the scaled product of the three input arrays as the region finds them. -/
theorem region0_array (c : Dev nD) :
    (dat0 (F := Ideal) V c).arrAt 3 cfg0.N
      = scaledProduct0 (V c (Pipeline.arrRef spec0 0)) (V c (Pipeline.arrRef spec0 1)) (V c (Pipeline.arrRef spec0 2)) :=
  (dat0 V c).arrAt_eq_of_cover 3 _ (fun t _ => flushed0_eq V c t) rowTiles0_cover

/-- The same read at explicit coordinates. The three arrays enter as variables of their literal types, equal to the
    region-entry contents, so that the products are products of extended reals as written. -/
theorem region0_apply (c : Dev nD) (x : S50000x512.Idx → EReal) (w : S512x256.Idx → EReal) (d : S50000x1.Idx → EReal)
    (hx : x = V c (Pipeline.arrRef spec0 0)) (hw : w = V c (Pipeline.arrRef spec0 1)) (hd : d = V c (Pipeline.arrRef spec0 2))
    (r : Fin 50000) (j : Fin 256) :
    ((dat0 (F := Ideal) V c).arrAt 3 cfg0.N : S50000x256.Idx → EReal) (ix2 r j)
      = (∑ k : Fin 512, x (ix2 r k) * w (ix2 k j)) * d (ix2 r (0 : Fin 1)) := by
  subst hx hw hd
  rw [region0_array]
  rfl

end

/-- Region 0's arrays are these buffers of the host program. -/
theorem region0_arrays : Pipeline.arrRef spec0 0 = main_arg0 ∧ Pipeline.arrRef spec0 1 = main_arg2
    ∧ Pipeline.arrRef spec0 2 = main_v12 ∧ Pipeline.arrRef spec0 3 = main_v13 := ⟨rfl, rfl, rfl, rfl⟩

end Cert.KernelIdeal.RegionValue

end
-- ==== Proof.RegionMatmulScaleB.lean ====
/-
  The second matmul-and-scale region, as one function of whole arrays.

  Each of the 25 grid points takes 2000 rows of the left array `h : [50000, 256]`, the whole right matrix
  `w : [256, 128]` and the same 2000 rows of the column `d : [50000, 1]`, and leaves in its output tile, at `(p, q)`,
  the sum over `k` of `h(p, k) · w(k, q)` times `d(p, 0)`. The output tiles are the 25 blocks of 2000 rows of the
  `[50000, 128]` output array, so the array ends holding, at `(r, j)`, the sum over `k` of `h(r, k) · w(k, j)` times
  `d(r, 0)`, of the three arrays as the region finds them.
-/
import proofs.«116918_j58720792871577_2_alg».proof.Proof.Gen.KernelIdeal.Frame
import proofs.«116918_j58720792871577_2_alg».proof.Proof.LibKeepdims
import proofs.«116918_j58720792871577_2_alg».proof.Proof.LibMatmul
import proofs.«116918_j58720792871577_2_alg».proof.Proof.RegionMatmulScaleA
import Idealize.ShloMosaic.Lib.ValueIdx
import Idealize.ShloMosaic.Lib.Pipeline.Value
import Idealize.ShloMosaic.Lib.ValueLayout
import Idealize.ShloMosaic.PureOps.Ideal.Laws

set_option maxRecDepth 16384

open scoped BigOperators

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

/-! ## Region 2: the product of `h` tiles with `w`, each row scaled by its entry of the column -/

/-- The printed contraction record is the plain `[M,K] × [K,N]` one. -/
theorem dot2_eq : dot_S2000x256_S256x128_S2000x128_1_0_0_1_n_n = DotDims.plain 2000 256 128 := rfl

/-- The tile's payload at `(p, q)`: row `p` of the left tile times column `q` of the right matrix, times the
    column's entry of row `p`. At the ideal values the narrowing of the operands to bf16 changes nothing and the
    zero accumulator adds nothing. -/
theorem scaledProduct2_apply (x : Vec Ideal S2000x256 .f32) (w : Vec Ideal S256x128 .f32) (d : Vec Ideal S2000x1 .f32)
    (p : Fin 2000) (q : Fin 128) :
    k2_pay1 (F := Ideal) x w d (ix2 p q) = (∑ k : Fin 256, x (ix2 p k) * w (ix2 k q)) * d (ix2 p (0 : Fin 1)) := by
  unfold k2_pay1
  rw [mulf_apply, shapeCast_self, shapeCast_self, Keepdims.broadcastTo_a1_ab_apply d _ p q (0 : Fin 1), dot2_eq,
    Cert.MatOps.matmul_plain_zero_apply]
  rfl

/-- The whole-array function: `(h · w)` with row `r` scaled by `d (r, 0)`. -/
def scaledProduct2 (x : S50000x256.Idx → EReal) (w : S256x128.Idx → EReal) (d : S50000x1.Idx → EReal) :
    S50000x128.Idx → EReal := fun i =>
  (∑ k : Fin 256, x (ix2 ⟨(i 0).val, idx2_lt0 i⟩ k) * w (ix2 k ⟨(i 1).val, idx2_lt1 i⟩)) * d (ix2 ⟨(i 0).val, idx2_lt0 i⟩ (0 : Fin 1))

/-- The scaled product at explicit coordinates. -/
theorem scaledProduct2_ix2 (x : S50000x256.Idx → EReal) (w : S256x128.Idx → EReal) (d : S50000x1.Idx → EReal)
    (r : Fin 50000) (j : Fin 128) :
    scaledProduct2 x w d (ix2 r j) = (∑ k : Fin 256, x (ix2 r k) * w (ix2 k j)) * d (ix2 r (0 : Fin 1)) := rfl

/-- The index maps over the grid: the row-tiled windows are at block `(t, 0)`, the right matrix at `(0, 0)`. -/
theorem tileIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 25 :=
  (by decide +kernel : ∀ t : Fin grid2.N, _)

/-- Every row tile is some point's. -/
theorem tileOnto2 : ∀ q : Fin 25, ∃ t : Fin cfg2.N, t.val = q.val :=
  (by decide +kernel : ∀ q : Fin 25, ∃ t : Fin grid2.N, t.val = q.val)

section
variable (V : (c : Dev nD) → (b : Ref sig .tc) → Buf (Elt Ideal) ((c : Thread nD τ).loc b))

/-- The left tile at point `t` is rows `2000 t … 2000 t + 1999` of the left array `h`. -/
theorem leftTile2_apply (c : Dev nD) (t : Fin cfg2.N) (y : S2000x256.Idx) (i : S50000x256.Idx)
    (h0 : (i 0).val = 2000 * t.val + (y 0).val) (h1 : (i 1).val = (y 1).val) :
    (iblk2 V c 0 t : Vec Ideal S2000x256 .f32) y = (V c (Pipeline.arrRef spec2 0) : S50000x256.Idx → EReal) i := by
  obtain ⟨e0, e1, -⟩ := tileIndex2 t
  unfold iblk2
  rw [View.read_apply]
  show V c main_v25 _ = V c main_v25 _
  refine congrArg (V c main_v25) ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The right matrix's block at every point is the whole right array. -/
theorem rightMatrix2_apply (c : Dev nD) (t : Fin cfg2.N) (y : S256x128.Idx) (i : S256x128.Idx)
    (h0 : (i 0).val = (y 0).val) (h1 : (i 1).val = (y 1).val) :
    (iblk2 V c 1 t : Vec Ideal S256x128 .f32) y = (V c (Pipeline.arrRef spec2 1) : S256x128.Idx → EReal) i := by
  obtain ⟨-, -, e0, e1, -⟩ := tileIndex2 t
  unfold iblk2
  rw [View.read_apply]
  show V c main_arg4 _ = V c main_arg4 _
  refine congrArg (V c main_arg4) ?_
  funext a
  apply Fin.ext
  match a with
  | ⟨0, _⟩ => show win2_1.index t (0 : Fin 2) * 256 + 1 * (y 0).val = (i 0).val; rw [e0, h0]; omega
  | ⟨1, _⟩ => show win2_1.index t (1 : Fin 2) * 128 + 1 * (y 1).val = (i 1).val; rw [e1, h1]; omega

/-- The column's tile at point `t` is rows `2000 t … 2000 t + 1999` of the column. -/
theorem columnTile2_apply (c : Dev nD) (t : Fin cfg2.N) (y : S2000x1.Idx) (i : S50000x1.Idx)
    (h0 : (i 0).val = 2000 * t.val + (y 0).val) (h1 : (i 1).val = (y 1).val) :
    (iblk2 V c 2 t : Vec Ideal S2000x1 .f32) y = (V c (Pipeline.arrRef spec2 2) : S50000x1.Idx → EReal) i := by
  obtain ⟨-, -, -, -, e0, e1, -⟩ := tileIndex2 t
  unfold iblk2
  rw [View.read_apply]
  show V c main_v12 _ = V c main_v12 _
  refine congrArg (V c main_v12) ?_
  funext a
  apply Fin.ext
  match a with
  | ⟨0, _⟩ => show win2_2.index t (0 : Fin 2) * 2000 + 1 * (y 0).val = (i 0).val; rw [e0, h0]; omega
  | ⟨1, _⟩ => show win2_2.index t (1 : Fin 2) * 1 + 1 * (y 1).val = (i 1).val; rw [e1, h1]; omega

/-- What point `t` writes back is tile `t` of the scaled product of the arrays as the region finds them. -/
theorem flushed2_eq (c : Dev nD) (t : Fin cfg2.N) :
    (dat2 (F := Ideal) V c).flushed 3 t = ((cfg2.win 3).blk t).view.read (Elt Ideal)
      (scaledProduct2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeroOffsets]
  simp only [View.ld_unit_zero (S := S2000x256) zeroOffsets, View.ld_unit_zero (S := S256x128) zeroOffsets,
    View.ld_unit_zero (S := S2000x1) zeroOffsets]
  obtain ⟨-, -, -, -, -, -, e0, e1, -⟩ := tileIndex2 t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
    = scaledProduct2 _ _ _ (((cfg2.win 3).blk t).view.emb (ix2 p q))
  have hr : ((((cfg2.win 3).blk t).view.emb (ix2 p q)) 0).val = 2000 * t.val + p.val := by
    show win2_3.index t (0 : Fin 2) * 2000 + 1 * p.val = _; rw [e0]; omega
  have hc : ((((cfg2.win 3).blk t).view.emb (ix2 p q)) 1).val = q.val := by
    show win2_3.index t (1 : Fin 2) * 128 + 1 * q.val = _; rw [e1]; omega
  refine (scaledProduct2_apply _ _ _ p q).trans ?_
  unfold scaledProduct2
  refine congrArg₂ (· * ·) (Finset.sum_congr rfl fun k _ => congrArg₂ (· * ·)
    (leftTile2_apply V c t (ix2 p k) _ hr rfl) (rightMatrix2_apply V c t (ix2 k q) _ rfl hc))
    (columnTile2_apply V c t (ix2 p 0) _ hr rfl)

/-- An index of the output array is in point `t`'s tile iff each coordinate is in the tile's range on its axis. -/
theorem mem_rowTile2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v26).slice (win2_3.rect t)).set ↔ _
  rw [View.set_slice_whole, Rect.mem_set_unit]
  exact Iff.rfl

/-- Row `r` of the output is in the tile of point `r / 2000`: the 25 row tiles cover the array. -/
theorem rowTiles2_cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := tileOnto2 ⟨(i 0).val / 2000, by omega⟩
  have ht' : t.val = (i 0).val / 2000 := ht
  obtain ⟨-, -, -, -, -, -, e0, e1, -⟩ := tileIndex2 t
  refine ⟨t, flush2_3 t, ?_⟩
  rw [mem_rowTile2]
  intro a
  match a with
  | ⟨0, _⟩ =>
    show win2_3.index t (0 : Fin 2) * 2000 ≤ (i 0).val ∧ (i 0).val < win2_3.index t (0 : Fin 2) * 2000 + 2000
    rw [e0, ht']; omega
  | ⟨1, _⟩ =>
    show win2_3.index t (1 : Fin 2) * 128 ≤ (i 1).val ∧ (i 1).val < win2_3.index t (1 : Fin 2) * 128 + 128
    rw [e1]; omega

/-- THE OUTPUT ARRAY after region 2: the scaled product of the three input arrays as the region finds them. -/
theorem region2_array (c : Dev nD) :
    (dat2 (F := Ideal) V c).arrAt 3 cfg2.N
      = scaledProduct2 (V c (Pipeline.arrRef spec2 0)) (V c (Pipeline.arrRef spec2 1)) (V c (Pipeline.arrRef spec2 2)) :=
  (dat2 V c).arrAt_eq_of_cover 3 _ (fun t _ => flushed2_eq V c t) rowTiles2_cover

/-- The same read at explicit coordinates. The three arrays enter as variables of their literal types, equal to the
    region-entry contents, so that the products are products of extended reals as written. -/
theorem region2_apply (c : Dev nD) (x : S50000x256.Idx → EReal) (w : S256x128.Idx → EReal) (d : S50000x1.Idx → EReal)
    (hx : x = V c (Pipeline.arrRef spec2 0)) (hw : w = V c (Pipeline.arrRef spec2 1)) (hd : d = V c (Pipeline.arrRef spec2 2))
    (r : Fin 50000) (j : Fin 128) :
    ((dat2 (F := Ideal) V c).arrAt 3 cfg2.N : S50000x128.Idx → EReal) (ix2 r j)
      = (∑ k : Fin 256, x (ix2 r k) * w (ix2 k j)) * d (ix2 r (0 : Fin 1)) := by
  subst hx hw hd
  rw [region2_array]
  rfl

end

/-- Region 2's arrays are these buffers of the host program. -/
theorem region2_arrays : Pipeline.arrRef spec2 0 = main_v25 ∧ Pipeline.arrRef spec2 1 = main_arg4
    ∧ Pipeline.arrRef spec2 2 = main_v12 ∧ Pipeline.arrRef spec2 3 = main_v26 := ⟨rfl, rfl, rfl, rfl⟩

end Cert.KernelIdeal.RegionValue

end
-- ==== Proof.RegionEpilogueA.lean ====
/-
  Region 1 of the kernel program — the epilogue that scales rows, adds the bias and cuts negative entries to zero —
  read as ONE function of whole arrays.

  The region's grid has 25 points. Point t loads rows 2000·t … 2000·t + 1999 of the aggregated [50000, 256] array and
  of the [50000, 1] scaling column, loads the whole [1, 256] bias row, and stores the tile
      max (column ⊙ tile + bias) 0
  to the same rows of the output. The 25 tiles fill the 50000 rows, so the output array ends as
      out (r, j) = max (dinv (r, 0) · agg (r, j) + bias (0, j)) 0
  of the three input arrays as the region finds them, whatever they are.
-/
import proofs.«116918_j58720792871577_2_alg».proof.Proof.Gen.KernelIdeal.Frame
import proofs.«116918_j58720792871577_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The two zero offsets of a whole-buffer rectangle, as the constant function. -/
theorem zero_offsets : (![0, 0] : Fin 2 → Nat) = fun _ => 0 := funext fun a => by fin_cases a <;> rfl

/-! ## Region 1: rows scaled, bias added, negative entries cut to zero -/

/-- The relu epilogue as one function of the three whole arrays: entry (r, j) is
    max (dinv r * agg (r, j) + bias j) 0. -/
def scaledBiasRelu (agg : S50000x256.Idx → EReal) (dinv : S50000x1.Idx → EReal) (bias : S1x256.Idx → EReal) :
    S50000x256.Idx → EReal :=
  fun i => max (dinv (ix2 (i 0 : Fin 50000) (0 : Fin 1)) * agg i + bias (ix2 (0 : Fin 1) (i 1 : Fin 256))) 0

/-- The whole-array function read at explicit coordinates. -/
theorem scaledBiasRelu_apply (agg : S50000x256.Idx → EReal) (dinv : S50000x1.Idx → EReal) (bias : S1x256.Idx → EReal)
    (r : Fin 50000) (j : Fin 256) :
    scaledBiasRelu agg dinv bias (ix2 r j) = max (dinv (ix2 r (0 : Fin 1)) * agg (ix2 r j) + bias (ix2 (0 : Fin 1) j)) 0 := rfl

/-- The body's stored tile at (p, q): the column's entry of row p times the tile's entry, plus the bias row's
    entry of lane q, then the maximum with zero. -/
theorem relu_tile_apply (d : Vec Ideal S2000x1 .f32) (a : Vec Ideal S2000x256 .f32) (b : Vec Ideal S1x256 .f32)
    (p : Fin 2000) (q : Fin 256) :
    k1_pay1 (F := Ideal) d a b (ix2 p q) = max (d (ix2 p (0 : Fin 1)) * a (ix2 p q) + b (ix2 (0 : Fin 1) q)) 0 := by
  unfold k1_pay1
  rw [maximumf_apply, addf_apply, mulf_apply, broadcast_apply]
  rw [shapeCast_self, shapeCast_self, shapeCast_self]
  rw [Keepdims.broadcastTo_a1_ab_apply _ _ p q 0, broadcastTo_1b_ab_apply]
  exact congrArg (max _) Ideal.ofBits_zero_f32

/-- When the three loaded blocks are the arrays' entries that the array index i names, the stored tile at
    (p, q) is the whole-array function at i. -/
theorem relu_tile_of_entries (x0 : Vec Ideal S2000x256 .f32) (x1 : Vec Ideal S2000x1 .f32) (x2 : Vec Ideal S1x256 .f32)
    (agg : S50000x256.Idx → EReal) (dinv : S50000x1.Idx → EReal) (bias : S1x256.Idx → EReal)
    (p : Fin 2000) (q : Fin 256) (i : S50000x256.Idx)
    (h0 : x0 (ix2 p q) = agg i) (h1 : x1 (ix2 p (0 : Fin 1)) = dinv (ix2 (i 0 : Fin 50000) (0 : Fin 1)))
    (h2 : x2 (ix2 (0 : Fin 1) q) = bias (ix2 (0 : Fin 1) (i 1 : Fin 256))) :
    k1_pay1 (F := Ideal) x1 x0 x2 (ix2 p q) = scaledBiasRelu agg dinv bias i := by
  rw [relu_tile_apply, h0, h1, h2]; rfl

/-- The block indices of region 1's four windows at grid point t: the row-tiled ones sit at block row t, the bias
    row at its one block. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is tile t of the whole-array function of the arrays as the region finds them. -/
theorem tile_written1 (c : Dev nD) (t : Fin cfg1.N) :
    (dat1 (F := Ideal) V c).flushed 3 t = ((cfg1.win 3).blk t).view.read (Elt Ideal)
      (scaledBiasRelu (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offsets]
  simp only [View.ld_unit_zero (S := S2000x1) zero_offsets, View.ld_unit_zero (S := S2000x256) zero_offsets, View.ld_unit_zero (S := S1x256) zero_offsets]
  obtain ⟨e00, e01, e10, e11, e20, e21, e30, e31⟩ := block_index1 t
  refine funext fun (j : S2000x256.Idx) => ?_
  obtain ⟨p, q, rfl⟩ : ∃ (p : Fin 2000) (q : Fin 256), j = ix2 p q := ⟨j 0, j 1, eq_ix2 j⟩
  show k1_pay1 (F := Ideal) (iblk1 V c 1 t) (iblk1 V c 0 t) (iblk1 V c 2 t) (ix2 p q)
      = scaledBiasRelu _ _ _ (((cfg1.win 3).blk t).view.emb (ix2 p q))
  refine relu_tile_of_entries _ _ _ _ _ _ p q _ ?_ ?_ ?_
  · show V c (Pipeline.arrRef spec1 0) (((cfg1.win 0).blk t).view.emb (ix2 p q)) = V c (Pipeline.arrRef spec1 0) (((cfg1.win 3).blk t).view.emb (ix2 p q))
    refine congrArg _ (funext fun a => Fin.ext ?_)
    match a with
    | ⟨0, _⟩ => show win1_0.index t (0 : Fin 2) * 2000 + 1 * p.val = win1_3.index t (0 : Fin 2) * 2000 + 1 * p.val; rw [e00, e30]
    | ⟨1, _⟩ => show win1_0.index t (1 : Fin 2) * 256 + 1 * q.val = win1_3.index t (1 : Fin 2) * 256 + 1 * q.val; rw [e01, e31]
  · show V c (Pipeline.arrRef spec1 1) (((cfg1.win 1).blk t).view.emb (ix2 p (0 : Fin 1)))
        = V c (Pipeline.arrRef spec1 1) (ix2 ((((cfg1.win 3).blk t).view.emb (ix2 p q)) 0 : Fin 50000) (0 : Fin 1))
    refine congrArg _ (funext fun a => Fin.ext ?_)
    match a with
    | ⟨0, _⟩ => show win1_1.index t (0 : Fin 2) * 2000 + 1 * p.val = win1_3.index t (0 : Fin 2) * 2000 + 1 * p.val; rw [e10, e30]
    | ⟨1, _⟩ => show win1_1.index t (1 : Fin 2) * 1 + 1 * (0 : Fin 1).val = (0 : Fin 1).val; rw [e11]; rfl
  · show V c (Pipeline.arrRef spec1 2) (((cfg1.win 2).blk t).view.emb (ix2 (0 : Fin 1) q))
        = V c (Pipeline.arrRef spec1 2) (ix2 (0 : Fin 1) ((((cfg1.win 3).blk t).view.emb (ix2 p q)) 1 : Fin 256))
    refine congrArg _ (funext fun a => Fin.ext ?_)
    match a with
    | ⟨0, _⟩ => show win1_2.index t (0 : Fin 2) * 1 + 1 * (0 : Fin 1).val = (0 : Fin 1).val; rw [e20]; rfl
    | ⟨1, _⟩ => show win1_2.index t (1 : Fin 2) * 256 + 1 * q.val = win1_3.index t (1 : Fin 2) * 256 + 1 * q.val; rw [e21, e31]

/-- An index of the output array lies in grid point t's tile iff each coordinate lies in the tile's range. -/
theorem mem_tile1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v25).slice (win1_3.rect t)).set ↔ _
  rw [View.set_slice_whole, Rect.mem_set_unit]
  exact Iff.rfl

/-- Row r of the output lies in the tile of grid point r / 2000: the 25 tiles of 2000 rows fill the 50000 rows. -/
theorem tiles_cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have ht : (i 0).val / 2000 < cfg1.N := by show _ < 25; omega
  obtain ⟨-, -, -, -, -, -, e30, e31⟩ := block_index1 ⟨(i 0).val / 2000, ht⟩
  refine ⟨⟨(i 0).val / 2000, ht⟩, flush1_3 _, ?_⟩
  rw [mem_tile1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e31]; omega

/-- The output array after region 1 is the whole-array function of the three input arrays as the region finds them. -/
theorem region1_array (c : Dev nD) :
    (dat1 (F := Ideal) V c).arrAt 3 cfg1.N
      = scaledBiasRelu (V c (Pipeline.arrRef spec1 0)) (V c (Pipeline.arrRef spec1 1)) (V c (Pipeline.arrRef spec1 2)) :=
  (dat1 (F := Ideal) V c).arrAt_eq_of_cover 3 _ (fun t _ => tile_written1 V c t) tiles_cover1

/-- Entry (r, j) of the output after region 1: the column's entry of row r times the aggregated entry, plus the
    bias row's entry of lane j, cut below at zero. -/
theorem region1_array_apply (c : Dev nD) (r : Fin 50000) (j : Fin 256) :
    (dat1 (F := Ideal) V c).arrAt 3 cfg1.N (ix2 r j)
      = scaledBiasRelu (V c (Pipeline.arrRef spec1 0)) (V c (Pipeline.arrRef spec1 1)) (V c (Pipeline.arrRef spec1 2)) (ix2 r j) :=
  congrFun (region1_array V c) (ix2 r j)

/-- The same entry with the arithmetic written out on the three arrays' entries. -/
theorem region1_entry (c : Dev nD) (r : Fin 50000) (j : Fin 256) :
    @Eq EReal ((dat1 (F := Ideal) V c).arrAt 3 cfg1.N (ix2 r j))
      (@max EReal _ (@HAdd.hAdd EReal EReal EReal _
          (@HMul.hMul EReal EReal EReal _ (V c (Pipeline.arrRef spec1 1) (ix2 r (0 : Fin 1))) (V c (Pipeline.arrRef spec1 0) (ix2 r j)))
          (V c (Pipeline.arrRef spec1 2) (ix2 (0 : Fin 1) j))) 0) :=
  region1_array_apply V c r j

/-- Entry (r, j) of the output after region 1, over names for the three arrays as the region finds them: the
    column's entry of row r times the aggregated entry, plus the bias row's entry of lane j, cut below at zero. -/
theorem region1_apply (c : Dev nD) (agg : S50000x256.Idx → EReal) (d : S50000x1.Idx → EReal) (b : S1x256.Idx → EReal)
    (hagg : agg = V c (Pipeline.arrRef spec1 0)) (hd : d = V c (Pipeline.arrRef spec1 1))
    (hb : b = V c (Pipeline.arrRef spec1 2)) (r : Fin 50000) (j : Fin 256) :
    ((dat1 (F := Ideal) V c).arrAt 3 cfg1.N : S50000x256.Idx → EReal) (ix2 r j)
      = max (d (ix2 r (0 : Fin 1)) * agg (ix2 r j) + b (ix2 (0 : Fin 1) j)) 0 := by
  subst hagg hd hb
  exact congrFun (region1_array V c) (ix2 r j)

/-! ## The region's arrays are these buffers of the program -/

theorem arr1_0 : Pipeline.arrRef spec1 0 = main_v23 := rfl
theorem arr1_1 : Pipeline.arrRef spec1 1 = main_v12 := rfl
theorem arr1_2 : Pipeline.arrRef spec1 2 = main_v24 := rfl
theorem arr1_3 : Pipeline.arrRef spec1 3 = main_v25 := rfl

end Cert.KernelIdeal.RegionValue

end
-- ==== Proof.RegionEpilogueB.lean ====
/-
  Region 3 of the kernel program — the epilogue that scales rows and adds the bias, with no cut at zero — read as
  ONE function of whole arrays.

  The region's grid has 25 points. Point t loads rows 2000·t … 2000·t + 1999 of the aggregated [50000, 128] array and
  of the [50000, 1] scaling column, loads the whole [1, 128] bias row, and stores the tile
      column ⊙ tile + bias
  to the same rows of the output. The 25 tiles fill the 50000 rows, so the output array ends as
      out (r, j) = dinv (r, 0) · agg (r, j) + bias (0, j)
  of the three input arrays as the region finds them, whatever they are.
-/
import proofs.«116918_j58720792871577_2_alg».proof.Proof.Gen.KernelIdeal.Frame
import proofs.«116918_j58720792871577_2_alg».proof.Proof.RegionEpilogueA
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 3: rows scaled, bias added -/

/-- The epilogue without relu as one function of the three whole arrays: entry (r, j) is
    dinv r * agg (r, j) + bias j. -/
def scaledBias (agg : S50000x128.Idx → EReal) (dinv : S50000x1.Idx → EReal) (bias : S1x128.Idx → EReal) :
    S50000x128.Idx → EReal :=
  fun i => dinv (ix2 (i 0 : Fin 50000) (0 : Fin 1)) * agg i + bias (ix2 (0 : Fin 1) (i 1 : Fin 128))

/-- The whole-array function read at explicit coordinates. -/
theorem scaledBias_apply (agg : S50000x128.Idx → EReal) (dinv : S50000x1.Idx → EReal) (bias : S1x128.Idx → EReal)
    (r : Fin 50000) (j : Fin 128) :
    scaledBias agg dinv bias (ix2 r j) = dinv (ix2 r (0 : Fin 1)) * agg (ix2 r j) + bias (ix2 (0 : Fin 1) j) := rfl

/-- The body's stored tile at (p, q): the column's entry of row p times the tile's entry, plus the bias row's
    entry of lane q. -/
theorem bias_tile_apply (d : Vec Ideal S2000x1 .f32) (a : Vec Ideal S2000x128 .f32) (b : Vec Ideal S1x128 .f32)
    (p : Fin 2000) (q : Fin 128) :
    k3_pay1 (F := Ideal) d a b (ix2 p q) = d (ix2 p (0 : Fin 1)) * a (ix2 p q) + b (ix2 (0 : Fin 1) q) := by
  unfold k3_pay1
  rw [addf_apply, mulf_apply]
  rw [shapeCast_self, shapeCast_self, shapeCast_self]
  rw [Keepdims.broadcastTo_a1_ab_apply _ _ p q 0, broadcastTo_1b_ab_apply]

/-- When the three loaded blocks are the arrays' entries that the array index i names, the stored tile at
    (p, q) is the whole-array function at i. -/
theorem bias_tile_of_entries (x0 : Vec Ideal S2000x128 .f32) (x1 : Vec Ideal S2000x1 .f32) (x2 : Vec Ideal S1x128 .f32)
    (agg : S50000x128.Idx → EReal) (dinv : S50000x1.Idx → EReal) (bias : S1x128.Idx → EReal)
    (p : Fin 2000) (q : Fin 128) (i : S50000x128.Idx)
    (h0 : x0 (ix2 p q) = agg i) (h1 : x1 (ix2 p (0 : Fin 1)) = dinv (ix2 (i 0 : Fin 50000) (0 : Fin 1)))
    (h2 : x2 (ix2 (0 : Fin 1) q) = bias (ix2 (0 : Fin 1) (i 1 : Fin 128))) :
    k3_pay1 (F := Ideal) x1 x0 x2 (ix2 p q) = scaledBias agg dinv bias i := by
  rw [bias_tile_apply, h0, h1, h2]; rfl

/-- The block indices of region 3's four windows at grid point t: the row-tiled ones sit at block row t, the bias
    row at its one block. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point t writes back is tile t of the whole-array function of the arrays as the region finds them. -/
theorem tile_written3 (c : Dev nD) (t : Fin cfg3.N) :
    (dat3 (F := Ideal) V c).flushed 3 t = ((cfg3.win 3).blk t).view.read (Elt Ideal)
      (scaledBias (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_offsets]
  simp only [View.ld_unit_zero (S := S2000x1) zero_offsets, View.ld_unit_zero (S := S2000x128) zero_offsets, View.ld_unit_zero (S := S1x128) zero_offsets]
  obtain ⟨e00, e01, e10, e11, e20, e21, e30, e31⟩ := block_index3 t
  refine funext fun (j : S2000x128.Idx) => ?_
  obtain ⟨p, q, rfl⟩ : ∃ (p : Fin 2000) (q : Fin 128), j = ix2 p q := ⟨j 0, j 1, eq_ix2 j⟩
  show k3_pay1 (F := Ideal) (iblk3 V c 1 t) (iblk3 V c 0 t) (iblk3 V c 2 t) (ix2 p q)
      = scaledBias _ _ _ (((cfg3.win 3).blk t).view.emb (ix2 p q))
  refine bias_tile_of_entries _ _ _ _ _ _ p q _ ?_ ?_ ?_
  · show V c (Pipeline.arrRef spec3 0) (((cfg3.win 0).blk t).view.emb (ix2 p q)) = V c (Pipeline.arrRef spec3 0) (((cfg3.win 3).blk t).view.emb (ix2 p q))
    refine congrArg _ (funext fun a => Fin.ext ?_)
    match a with
    | ⟨0, _⟩ => show win3_0.index t (0 : Fin 2) * 2000 + 1 * p.val = win3_3.index t (0 : Fin 2) * 2000 + 1 * p.val; rw [e00, e30]
    | ⟨1, _⟩ => show win3_0.index t (1 : Fin 2) * 128 + 1 * q.val = win3_3.index t (1 : Fin 2) * 128 + 1 * q.val; rw [e01, e31]
  · show V c (Pipeline.arrRef spec3 1) (((cfg3.win 1).blk t).view.emb (ix2 p (0 : Fin 1)))
        = V c (Pipeline.arrRef spec3 1) (ix2 ((((cfg3.win 3).blk t).view.emb (ix2 p q)) 0 : Fin 50000) (0 : Fin 1))
    refine congrArg _ (funext fun a => Fin.ext ?_)
    match a with
    | ⟨0, _⟩ => show win3_1.index t (0 : Fin 2) * 2000 + 1 * p.val = win3_3.index t (0 : Fin 2) * 2000 + 1 * p.val; rw [e10, e30]
    | ⟨1, _⟩ => show win3_1.index t (1 : Fin 2) * 1 + 1 * (0 : Fin 1).val = (0 : Fin 1).val; rw [e11]; rfl
  · show V c (Pipeline.arrRef spec3 2) (((cfg3.win 2).blk t).view.emb (ix2 (0 : Fin 1) q))
        = V c (Pipeline.arrRef spec3 2) (ix2 (0 : Fin 1) ((((cfg3.win 3).blk t).view.emb (ix2 p q)) 1 : Fin 128))
    refine congrArg _ (funext fun a => Fin.ext ?_)
    match a with
    | ⟨0, _⟩ => show win3_2.index t (0 : Fin 2) * 1 + 1 * (0 : Fin 1).val = (0 : Fin 1).val; rw [e20]; rfl
    | ⟨1, _⟩ => show win3_2.index t (1 : Fin 2) * 128 + 1 * q.val = win3_3.index t (1 : Fin 2) * 128 + 1 * q.val; rw [e21, e31]

/-- An index of the output array lies in grid point t's tile iff each coordinate lies in the tile's range. -/
theorem mem_tile3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v38).slice (win3_3.rect t)).set ↔ _
  rw [View.set_slice_whole, Rect.mem_set_unit]
  exact Iff.rfl

/-- Row r of the output lies in the tile of grid point r / 2000: the 25 tiles of 2000 rows fill the 50000 rows. -/
theorem tiles_cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 2000 < cfg3.N := by show _ < 25; omega
  obtain ⟨-, -, -, -, -, -, e30, e31⟩ := block_index3 ⟨(i 0).val / 2000, ht⟩
  refine ⟨⟨(i 0).val / 2000, ht⟩, flush3_3 _, ?_⟩
  rw [mem_tile3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e31]; omega

/-- The output array after region 3 is the whole-array function of the three input arrays as the region finds them. -/
theorem region3_array (c : Dev nD) :
    (dat3 (F := Ideal) V c).arrAt 3 cfg3.N
      = scaledBias (V c (Pipeline.arrRef spec3 0)) (V c (Pipeline.arrRef spec3 1)) (V c (Pipeline.arrRef spec3 2)) :=
  (dat3 (F := Ideal) V c).arrAt_eq_of_cover 3 _ (fun t _ => tile_written3 V c t) tiles_cover3

/-- Entry (r, j) of the output after region 3: the column's entry of row r times the aggregated entry, plus the
    bias row's entry of lane j. -/
theorem region3_array_apply (c : Dev nD) (r : Fin 50000) (j : Fin 128) :
    (dat3 (F := Ideal) V c).arrAt 3 cfg3.N (ix2 r j)
      = scaledBias (V c (Pipeline.arrRef spec3 0)) (V c (Pipeline.arrRef spec3 1)) (V c (Pipeline.arrRef spec3 2)) (ix2 r j) :=
  congrFun (region3_array V c) (ix2 r j)

/-- The same entry with the arithmetic written out on the three arrays' entries. -/
theorem region3_entry (c : Dev nD) (r : Fin 50000) (j : Fin 128) :
    @Eq EReal ((dat3 (F := Ideal) V c).arrAt 3 cfg3.N (ix2 r j))
      (@HAdd.hAdd EReal EReal EReal _
          (@HMul.hMul EReal EReal EReal _ (V c (Pipeline.arrRef spec3 1) (ix2 r (0 : Fin 1))) (V c (Pipeline.arrRef spec3 0) (ix2 r j)))
          (V c (Pipeline.arrRef spec3 2) (ix2 (0 : Fin 1) j))) :=
  region3_array_apply V c r j

/-- Entry (r, j) of the output after region 3, over names for the three arrays as the region finds them: the
    column's entry of row r times the aggregated entry, plus the bias row's entry of lane j. -/
theorem region3_apply (c : Dev nD) (agg : S50000x128.Idx → EReal) (d : S50000x1.Idx → EReal) (b : S1x128.Idx → EReal)
    (hagg : agg = V c (Pipeline.arrRef spec3 0)) (hd : d = V c (Pipeline.arrRef spec3 1))
    (hb : b = V c (Pipeline.arrRef spec3 2)) (r : Fin 50000) (j : Fin 128) :
    ((dat3 (F := Ideal) V c).arrAt 3 cfg3.N : S50000x128.Idx → EReal) (ix2 r j)
      = d (ix2 r (0 : Fin 1)) * agg (ix2 r j) + b (ix2 (0 : Fin 1) j) := by
  subst hagg hd hb
  exact congrFun (region3_array V c) (ix2 r j)

/-! ## The region's arrays are these buffers of the program -/

theorem arr3_0 : Pipeline.arrRef spec3 0 = main_v36 := rfl
theorem arr3_1 : Pipeline.arrRef spec3 1 = main_v12 := rfl
theorem arr3_2 : Pipeline.arrRef spec3 2 = main_v37 := rfl
theorem arr3_3 : Pipeline.arrRef spec3 3 = main_v38 := rfl

end Cert.KernelIdeal.RegionValue

end
-- ==== Proof.KValue.lean ====
import proofs.«116918_j58720792871577_2_alg».proof.Proof.Gen.KernelIdeal.Frame
import proofs.«116918_j58720792871577_2_alg».proof.Proof.KWalk
import proofs.«116918_j58720792871577_2_alg».proof.Proof.KHostB
import proofs.«116918_j58720792871577_2_alg».proof.Proof.KHostC
import proofs.«116918_j58720792871577_2_alg».proof.Proof.KReads
import proofs.«116918_j58720792871577_2_alg».proof.Proof.RegionMatmulScaleA
import proofs.«116918_j58720792871577_2_alg».proof.Proof.RegionMatmulScaleB
import proofs.«116918_j58720792871577_2_alg».proof.Proof.RegionEpilogueA
import proofs.«116918_j58720792871577_2_alg».proof.Proof.RegionEpilogueB
import proofs.«116918_j58720792871577_2_alg».proof.Proof.Spec
import Idealize.ShloMosaic.Lib.StableHlo.Run
import Idealize.ShloMosaic.PureOps.Ideal
import Idealize.ShloMosaic.Lib.ValueIdx

set_option maxRecDepth 16384

noncomputable section

/-!
  The idealized kernel program's result array, entry by entry, is the two-layer graph convolution in the kernel's
  arrangement (`Cert.Gcn.kOut`).

  Read backwards from the result: region 3 leaves `dinv n · agg₂(n, j) + b₂ j`; `agg₂` is the scatter, through the
  destinations, of the rows of region 2's output gathered through the sources; region 2 leaves
  `(∑ k, h₁(r, k) · W₂(k, j)) · dinv r`; region 1 leaves `h₁(n, j) = max (dinv n · agg₁(n, j) + b₁ j) 0`; `agg₁` is the same
  gather and scatter of region 0's output `(∑ k, x(r, k) · W₁(k, j)) · dinv r`; and `dinv` is the reciprocal square root of
  the in-degree, computed once before region 0 and reaching every region unchanged.
-/
namespace Cert.KernelIdeal.KValue

open Cert.KernelIdeal.KHost Cert.KernelIdeal.RegionValue

open Cert.KernelIdeal Cert.KernelIdeal.Gen Cert.Gcn
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

local notation "𝐮" => Ideal.ofBits FTy.f32 0x3F800000#32

/-- The launch memory's argument arrays as coordinate functions. -/
abbrev argX : Fin 50000 → Fin 512 → EReal := fun r k => (m ((c : Thread nD τ).loc main_arg0) : S50000x512.Idx → EReal) (ValueIdx.ix2 r k)
abbrev argW1 : Fin 512 → Fin 256 → EReal := fun k j => (m ((c : Thread nD τ).loc main_arg2) : S512x256.Idx → EReal) (ValueIdx.ix2 k j)
abbrev argB1 : Fin 256 → EReal := fun j => (m ((c : Thread nD τ).loc main_arg3) : S256.Idx → EReal) (ValueIdx.ix1 j)
abbrev argW2 : Fin 256 → Fin 128 → EReal := fun k j => (m ((c : Thread nD τ).loc main_arg4) : S256x128.Idx → EReal) (ValueIdx.ix2 k j)
abbrev argB2 : Fin 128 → EReal := fun j => (m ((c : Thread nD τ).loc main_arg5) : S128.Idx → EReal) (ValueIdx.ix1 j)
abbrev sCol : IVec S850000x1 32 := srcCol (m ((c : Thread nD τ).loc main_arg1))
abbrev dCol : IVec S850000x1 32 := dstCol (m ((c : Thread nD τ).loc main_arg1))

abbrev arg1 : IVec S2x800000 32 := m ((c : Thread nD τ).loc main_arg1)

/-- The column of reciprocal square roots reaches every region as it was computed before region 0. -/
theorem dinv_W1 : (dinvCol (arg1 m c) : S50000x1.Idx → EReal) = W1 (F := Ideal) m ρ c (Proc.devRef .tc main_v12) := (W1_dinv m ρ c).symm
theorem dinv_W3 : (dinvCol (arg1 m c) : S50000x1.Idx → EReal) = W3 (F := Ideal) m ρ c (Proc.devRef .tc main_v12) :=
  ((W3_dinv m ρ c).trans ((W2_dinv m ρ c).trans (W1_dinv m ρ c))).symm
theorem dinv_W4 : (dinvCol (arg1 m c) : S50000x1.Idx → EReal) = W4 (F := Ideal) m ρ c (Proc.devRef .tc main_v12) :=
  ((W4_dinv m ρ c).trans (dinv_W3 m ρ c).symm).symm
theorem dinv_W6 : (dinvCol (arg1 m c) : S50000x1.Idx → EReal) = W6 (F := Ideal) m ρ c (Proc.devRef .tc main_v12) :=
  ((W6_dinv m ρ c).trans ((W5_dinv m ρ c).trans (dinv_W4 m ρ c).symm)).symm

/-- The index vectors reach both gathers and scatters as they were computed before region 0. -/
theorem src_W2 : W2 (F := Ideal) m ρ c (Proc.devRef .tc main_v3) = srcVec (arg1 m c) := (W2_src m ρ c).trans (W1_src m ρ c)
theorem dst_W2 : W2 (F := Ideal) m ρ c (Proc.devRef .tc main_v6) = dstVec (arg1 m c) := (W2_dst m ρ c).trans (W1_dst m ρ c)
theorem src_W5 : W5 (F := Ideal) m ρ c (Proc.devRef .tc main_v3) = srcVec (arg1 m c) :=
  (W5_src m ρ c).trans ((W4_src m ρ c).trans ((W3_src m ρ c).trans (src_W2 m ρ c)))
theorem dst_W5 : W5 (F := Ideal) m ρ c (Proc.devRef .tc main_v6) = dstVec (arg1 m c) :=
  (W5_dst m ρ c).trans ((W4_dst m ρ c).trans ((W3_dst m ρ c).trans (dst_W2 m ρ c)))

/-- The bias rows. -/
theorem bias_W3 : (shapeCast S1x256 (m ((c : Thread nD τ).loc main_arg3)) shapeCasts_S256_S1x256 : S1x256.Idx → EReal)
    = W3 (F := Ideal) m ρ c (Proc.devRef .tc main_v24) := by
  rw [W3_bias, W2_arg3]
theorem bias_W6 : (shapeCast S1x128 (m ((c : Thread nD τ).loc main_arg5)) shapeCasts_S128_S1x128 : S1x128.Idx → EReal)
    = W6 (F := Ideal) m ρ c (Proc.devRef .tc main_v37) := by
  rw [W6_bias, W5_arg5]

/-- Region 0's output: the scaled first product. -/
theorem hs1_apply (r : Fin 50000) (j : Fin 256) :
    (W2 (F := Ideal) m ρ c (Proc.devRef .tc main_v13) : S50000x256.Idx → EReal) (ValueIdx.ix2 r j)
      = (∑ k : Fin 512, argX m c r k * argW1 m c k j) * dinv 𝐮 (dCol m c) r := by
  rw [W2_out]
  refine (region0_apply (V1 m ρ) c (m ((c : Thread nD τ).loc main_arg0)) (m ((c : Thread nD τ).loc main_arg2)) (dinvCol (arg1 m c))
    (W1_arg0 m ρ c).symm (W1_arg2 m ρ c).symm (dinv_W1 m ρ c) r j).trans ?_
  rw [dinvCol_apply]

/-- The first aggregate. -/
theorem agg1_apply (n : Fin 50000) (j : Fin 256) :
    (W3 (F := Ideal) m ρ c (Proc.devRef .tc main_v23) : S50000x256.Idx → EReal) (ValueIdx.ix2 n j)
      = 0 + ∑ e ∈ landing (dCol m c) n, (∑ k : Fin 512, argX m c (rowAt (by decide : 0 < 50000) (sCol m c) e) k * argW1 m c k j)
          * dinv 𝐮 (dCol m c) (rowAt (by decide : 0 < 50000) (sCol m c) e) := by
  rw [W3_agg, agg256_apply, src_W2, dst_W2]
  exact congrArg (fun t : EReal => (0 : EReal) + t) (Finset.sum_congr rfl fun e _ => hs1_apply m ρ c _ j)

/-- Region 1's output: the first layer, then `max · 0`. -/
theorem h1_apply (n : Fin 50000) (j : Fin 256) :
    (W4 (F := Ideal) m ρ c (Proc.devRef .tc main_v25) : S50000x256.Idx → EReal) (ValueIdx.ix2 n j)
      = max (kLayer (by decide : 0 < 50000) 𝐮 (sCol m c) (dCol m c) (argX m c) (argW1 m c) (argB1 m c) n j) 0 := by
  rw [W4_out]
  refine (region1_apply (V3 m ρ) c (W3 (F := Ideal) m ρ c (Proc.devRef .tc main_v23)) (dinvCol (arg1 m c))
    (shapeCast S1x256 (m ((c : Thread nD τ).loc main_arg3)) shapeCasts_S256_S1x256) rfl (dinv_W3 m ρ c) (bias_W3 m ρ c) n j).trans ?_
  rw [dinvCol_apply, agg1_apply, biasRow256_apply]
  rfl

/-- Region 2's output: the scaled second product. -/
theorem hs2_apply (r : Fin 50000) (j : Fin 128) :
    (W5 (F := Ideal) m ρ c (Proc.devRef .tc main_v26) : S50000x128.Idx → EReal) (ValueIdx.ix2 r j)
      = (∑ k : Fin 256, max (kLayer (by decide : 0 < 50000) 𝐮 (sCol m c) (dCol m c) (argX m c) (argW1 m c) (argB1 m c) r k) 0 * argW2 m c k j)
          * dinv 𝐮 (dCol m c) r := by
  rw [W5_out]
  refine (region2_apply (V4 m ρ) c (W4 (F := Ideal) m ρ c (Proc.devRef .tc main_v25)) (m ((c : Thread nD τ).loc main_arg4)) (dinvCol (arg1 m c))
    rfl (W4_arg4 m ρ c).symm (dinv_W4 m ρ c) r j).trans ?_
  rw [dinvCol_apply]
  refine congrArg (fun t : EReal => t * dinv 𝐮 (dCol m c) r) ?_
  refine Finset.sum_congr rfl fun k _ => ?_
  exact congrArg (fun t : EReal => t * argW2 m c k j) (h1_apply m ρ c r k)

/-- The second aggregate. -/
theorem agg2_apply (n : Fin 50000) (j : Fin 128) :
    (W6 (F := Ideal) m ρ c (Proc.devRef .tc main_v36) : S50000x128.Idx → EReal) (ValueIdx.ix2 n j)
      = 0 + ∑ e ∈ landing (dCol m c) n,
          (∑ k : Fin 256, max (kLayer (by decide : 0 < 50000) 𝐮 (sCol m c) (dCol m c) (argX m c) (argW1 m c) (argB1 m c) (rowAt (by decide : 0 < 50000) (sCol m c) e) k) 0 * argW2 m c k j)
            * dinv 𝐮 (dCol m c) (rowAt (by decide : 0 < 50000) (sCol m c) e) := by
  rw [W6_agg, agg128_apply, src_W5, dst_W5]
  exact congrArg (fun t : EReal => (0 : EReal) + t) (Finset.sum_congr rfl fun e _ => hs2_apply m ρ c _ j)

/-- THE RESULT: region 3's output is the two-layer convolution in the kernel's arrangement. -/
theorem result_apply (n : Fin 50000) (j : Fin 128) :
    (W7 (F := Ideal) m ρ c (Proc.devRef .tc main_v38) : S50000x128.Idx → EReal) (ValueIdx.ix2 n j)
      = kOut (by decide : 0 < 50000) 𝐮 (sCol m c) (dCol m c) (argX m c) (argW1 m c) (argB1 m c) (argW2 m c) (argB2 m c) n j := by
  rw [W7_out]
  refine (region3_apply (V6 m ρ) c (W6 (F := Ideal) m ρ c (Proc.devRef .tc main_v36)) (dinvCol (arg1 m c))
    (shapeCast S1x128 (m ((c : Thread nD τ).loc main_arg5)) shapeCasts_S128_S1x128) rfl (dinv_W6 m ρ c) (bias_W6 m ρ c) n j).trans ?_
  rw [dinvCol_apply, agg2_apply, biasRow128_apply]
  rfl

end Cert.KernelIdeal.KValue
end
-- ==== Proof.RefValue.lean ====
/-
  The reference program's result read at an index, as the two-layer graph convolution in the reference's arrangement.

  The reference builds, from the edge list, the three index columns (wrapped sources, destinations, wrapped
  destinations); the in-degree of every node as a vector scatter-add of ones through the destination column into
  zeros; its reciprocal square root; and, per edge, the product of the reciprocal square roots gathered through the
  wrapped source and the wrapped destination columns. One layer is then: the product of the features with the
  weight matrix; a row gather of that product through the wrapped source column; each gathered row scaled by its edge's
  product; a row scatter-add through the destination column into zeros; plus the bias laid out over the rows. The
  program does this twice (recomputing the columns, the degrees and the scales), with the maximum against zero between.

  Each stage is read at an explicit index into a closed expression, bottom up: the columns are the named columns
  (by unfolding: the same operations on the same edge list); the degree is `degree`, its reciprocal square root
  `dinv`; the per-edge scale is the product of two `dinv` at `rowAt` of the two gather columns; the first layer before
  the maximum is `rLayer`; the second layer over the maximum of the first is `rOut`.
-/
import proofs.«116918_j58720792871577_2_alg».proof.Proof.Gen.ReferenceIdeal.Read
import proofs.«116918_j58720792871577_2_alg».proof.Proof.Spec
import proofs.«116918_j58720792871577_2_alg».proof.Proof.IndexCols
import proofs.«116918_j58720792871577_2_alg».proof.Proof.LibRowGatherScatter
import proofs.«116918_j58720792871577_2_alg».proof.Proof.LibVecGatherScatter
import proofs.«116918_j58720792871577_2_alg».proof.Proof.LibMatmul

open scoped BigOperators
noncomputable section
namespace Cert.Gcn.Ref
open Idealize.ShloMosaic Idealize.ShloMosaic.ValueIdx Cert.ReferenceIdeal Cert.ReferenceIdeal.Gen Cert.ReferenceIdeal.Read

/-- The unit weight: the word of 1.0, kept unevaluated. -/
abbrev u1 : EReal := Ideal.ofBits .f32 0x3F800000#32

theorem v11_eq (x1 : IVec S2x800000 32) : val_main_v11 (F := Ideal) x1 = Cert.Gcn.dstCol x1 := rfl
theorem v40_eq (x1 : IVec S2x800000 32) : val_main_v40 (F := Ideal) x1 = Cert.Gcn.dstCol x1 := rfl
theorem v57_eq (x1 : IVec S2x800000 32) : val_main_v57 (F := Ideal) x1 = Cert.Gcn.dstCol x1 := rfl
theorem v86_eq (x1 : IVec S2x800000 32) : val_main_v86 (F := Ideal) x1 = Cert.Gcn.dstCol x1 := rfl
theorem v19_eq (x1 : IVec S2x800000 32) : val_main_v19 (F := Ideal) x1 = Cert.Gcn.srcCol x1 := rfl
theorem v34_eq (x1 : IVec S2x800000 32) : val_main_v34 (F := Ideal) x1 = Cert.Gcn.srcCol x1 := rfl
theorem v65_eq (x1 : IVec S2x800000 32) : val_main_v65 (F := Ideal) x1 = Cert.Gcn.srcCol x1 := rfl
theorem v80_eq (x1 : IVec S2x800000 32) : val_main_v80 (F := Ideal) x1 = Cert.Gcn.srcCol x1 := rfl
theorem v26_eq (x1 : IVec S2x800000 32) : val_main_v26 (F := Ideal) x1 = Cert.Gcn.dstWrapCol x1 := rfl
theorem v72_eq (x1 : IVec S2x800000 32) : val_main_v72 (F := Ideal) x1 = Cert.Gcn.dstWrapCol x1 := rfl

/-- At the ideal values the host's accumulating scatter is the exact sum. -/
theorem scatterAdd_ideal {s si su : Shape} {w : Nat} (d : ScatterDims s si su) (x : FVec Ideal s .f32) (idx : IVec si w)
    (upd : FVec Ideal su .f32) : Host.scatterAdd (F := Ideal) d x idx upd = Ideal.hostScatterAdd d x idx upd := rfl

theorem vecScatter_eq : scatter_S50000_S850000x1_S850000_n_0_0_1
    = Cert.VecOps.vecScatterDims 50000 850000 scatter_S50000_S850000x1_S850000_n_0_0_1_wf := rfl
theorem vecGather_eq : gather_S50000_S850000x1_S850000_n_0_n_n_0_1_1
    = Cert.VecOps.vecGatherDims 50000 850000 gather_S50000_S850000x1_S850000_n_0_n_n_0_1_1_wf := rfl
theorem rowGather256_eq : gather_S50000x256_S850000x1_S850000x256_1_0_n_n_0_1_1256
    = Cert.RowOps.rowGatherDims 50000 850000 256 gather_S50000x256_S850000x1_S850000x256_1_0_n_n_0_1_1256_wf := rfl
theorem rowScatter256_eq : scatter_S50000x256_S850000x1_S850000x256_1_0_0_1
    = Cert.RowOps.rowScatterDims 50000 850000 256 scatter_S50000x256_S850000x1_S850000x256_1_0_0_1_wf := rfl
theorem rowGather128_eq : gather_S50000x128_S850000x1_S850000x128_1_0_n_n_0_1_1128
    = Cert.RowOps.rowGatherDims 50000 850000 128 gather_S50000x128_S850000x1_S850000x128_1_0_n_n_0_1_1128_wf := rfl
theorem rowScatter128_eq : scatter_S50000x128_S850000x1_S850000x128_1_0_0_1
    = Cert.RowOps.rowScatterDims 50000 850000 128 scatter_S50000x128_S850000x1_S850000x128_1_0_0_1_wf := rfl

/-! ### Degree and its reciprocal square root -/

theorem v12_apply (x1 : IVec S2x800000 32) (n : Fin 50000) :
    val_main_v12 (F := Ideal) x1 (ix1 n) = Cert.Gcn.degree u1 (Cert.Gcn.dstCol x1) n := by
  unfold val_main_v12
  rw [v11_eq, scatterAdd_ideal, vecScatter_eq, Cert.VecOps.vecScatterAdd_apply]
  rw [val_main_v10_apply, val_main_cst_0_apply, Ideal.ofBits_def, Ideal.ofBits_zero_f32]
  unfold Cert.Gcn.degree Cert.Gcn.landing
  refine congrArg (fun t : EReal => (0 : EReal) + t) ?_
  refine Finset.sum_congr rfl fun e _ => ?_
  rw [val_main_v9_apply, val_main_cst_apply, Ideal.ofBits_def]

theorem v13_dinv (x1 : IVec S2x800000 32) (n : Fin 50000) :
    val_main_v13 (F := Ideal) x1 (ix1 n) = Cert.Gcn.dinv u1 (Cert.Gcn.dstCol x1) n := by
  rw [val_main_v13_apply, v12_apply, Ideal.hostUnary_rsqrt_def]
  unfold Cert.Gcn.dinv
  rfl

theorem v58_apply (x1 : IVec S2x800000 32) (n : Fin 50000) :
    val_main_v58 (F := Ideal) x1 (ix1 n) = Cert.Gcn.degree u1 (Cert.Gcn.dstCol x1) n := by
  unfold val_main_v58
  rw [v57_eq, scatterAdd_ideal, vecScatter_eq, Cert.VecOps.vecScatterAdd_apply]
  rw [val_main_v56_apply, val_main_cst_8_apply, Ideal.ofBits_def, Ideal.ofBits_zero_f32]
  unfold Cert.Gcn.degree Cert.Gcn.landing
  refine congrArg (fun t : EReal => (0 : EReal) + t) ?_
  refine Finset.sum_congr rfl fun e _ => ?_
  rw [val_main_v55_apply, val_main_cst_7_apply, Ideal.ofBits_def]

theorem v59_dinv (x1 : IVec S2x800000 32) (n : Fin 50000) :
    val_main_v59 (F := Ideal) x1 (ix1 n) = Cert.Gcn.dinv u1 (Cert.Gcn.dstCol x1) n := by
  rw [val_main_v59_apply, v58_apply, Ideal.hostUnary_rsqrt_def]
  unfold Cert.Gcn.dinv
  rfl

/-! ### The per-edge scale -/

theorem v20_apply (x1 : IVec S2x800000 32) (e : Fin 850000) :
    val_main_v20 (F := Ideal) x1 (ix1 e)
      = Cert.Gcn.dinv u1 (Cert.Gcn.dstCol x1) (Cert.Gcn.rowAt (by decide : 0 < 50000) (Cert.Gcn.srcCol x1) e) := by
  unfold val_main_v20
  rw [v19_eq, vecGather_eq, Cert.VecOps.vecGather_apply (by decide : 0 < 50000), v13_dinv]
  unfold Cert.Gcn.rowAt
  rfl

theorem v27_apply (x1 : IVec S2x800000 32) (e : Fin 850000) :
    val_main_v27 (F := Ideal) x1 (ix1 e)
      = Cert.Gcn.dinv u1 (Cert.Gcn.dstCol x1) (Cert.Gcn.rowAt (by decide : 0 < 50000) (Cert.Gcn.dstWrapCol x1) e) := by
  unfold val_main_v27
  rw [v26_eq, vecGather_eq, Cert.VecOps.vecGather_apply (by decide : 0 < 50000), v13_dinv]
  unfold Cert.Gcn.rowAt
  rfl

theorem v28_norm (x1 : IVec S2x800000 32) (e : Fin 850000) :
    val_main_v28 (F := Ideal) x1 (ix1 e)
      = Cert.Gcn.dinv u1 (Cert.Gcn.dstCol x1) (Cert.Gcn.rowAt (by decide : 0 < 50000) (Cert.Gcn.srcCol x1) e)
        * Cert.Gcn.dinv u1 (Cert.Gcn.dstCol x1) (Cert.Gcn.rowAt (by decide : 0 < 50000) (Cert.Gcn.dstWrapCol x1) e) := by
  rw [val_main_v28_apply, Ideal.mulf_def, v20_apply, v27_apply]

theorem v66_apply (x1 : IVec S2x800000 32) (e : Fin 850000) :
    val_main_v66 (F := Ideal) x1 (ix1 e)
      = Cert.Gcn.dinv u1 (Cert.Gcn.dstCol x1) (Cert.Gcn.rowAt (by decide : 0 < 50000) (Cert.Gcn.srcCol x1) e) := by
  unfold val_main_v66
  rw [v65_eq, vecGather_eq, Cert.VecOps.vecGather_apply (by decide : 0 < 50000), v59_dinv]
  unfold Cert.Gcn.rowAt
  rfl

theorem v73_apply (x1 : IVec S2x800000 32) (e : Fin 850000) :
    val_main_v73 (F := Ideal) x1 (ix1 e)
      = Cert.Gcn.dinv u1 (Cert.Gcn.dstCol x1) (Cert.Gcn.rowAt (by decide : 0 < 50000) (Cert.Gcn.dstWrapCol x1) e) := by
  unfold val_main_v73
  rw [v72_eq, vecGather_eq, Cert.VecOps.vecGather_apply (by decide : 0 < 50000), v59_dinv]
  unfold Cert.Gcn.rowAt
  rfl

theorem v74_norm (x1 : IVec S2x800000 32) (e : Fin 850000) :
    val_main_v74 (F := Ideal) x1 (ix1 e)
      = Cert.Gcn.dinv u1 (Cert.Gcn.dstCol x1) (Cert.Gcn.rowAt (by decide : 0 < 50000) (Cert.Gcn.srcCol x1) e)
        * Cert.Gcn.dinv u1 (Cert.Gcn.dstCol x1) (Cert.Gcn.rowAt (by decide : 0 < 50000) (Cert.Gcn.dstWrapCol x1) e) := by
  rw [val_main_v74_apply, Ideal.mulf_def, v66_apply, v73_apply]

/-! ### Index bookkeeping: where each layout operation reads -/

theorem idx36_ix (e : Fin 850000) : idx_main_v36 (ix2 e (0 : Fin 1)) = ix1 e := by
  funext a; match a with | ⟨0, _⟩ => rfl
theorem idx37_ix (e : Fin 850000) (c : Fin 256) : idx_main_v37 (ix2 e c) = ix2 e (0 : Fin 1) := by
  funext a; match a with | ⟨0, _⟩ => rfl | ⟨1, _⟩ => rfl
theorem idx42_ix (c : Fin 256) : idx_main_v42 (ix2 (0 : Fin 1) c) = ix1 c := by
  funext a; match a with | ⟨0, _⟩ => rfl
theorem idx43_ix (n : Fin 50000) (c : Fin 256) : idx_main_v43 (ix2 n c) = ix2 (0 : Fin 1) c := by
  funext a; match a with | ⟨0, _⟩ => rfl | ⟨1, _⟩ => rfl
theorem lidx0_ix (r : Fin 50000) (c : Fin 256) (k : Fin 512) : lidx_main_v0 (ix2 r c) k = ix2 r k := by
  funext a; match a with | ⟨0, _⟩ => rfl | ⟨1, _⟩ => rfl
theorem ridx0_ix (r : Fin 50000) (c : Fin 256) (k : Fin 512) : ridx_main_v0 (ix2 r c) k = ix2 k c := by
  funext a; match a with | ⟨0, _⟩ => rfl | ⟨1, _⟩ => rfl

/-! ### The first layer -/

/-- The product of the two gathered scales of edge `e`. -/
abbrev nrm (x1 : IVec S2x800000 32) (e : Fin 850000) : EReal :=
  Cert.Gcn.dinv u1 (Cert.Gcn.dstCol x1) (Cert.Gcn.rowAt (by decide : 0 < 50000) (Cert.Gcn.srcCol x1) e)
    * Cert.Gcn.dinv u1 (Cert.Gcn.dstCol x1) (Cert.Gcn.rowAt (by decide : 0 < 50000) (Cert.Gcn.dstWrapCol x1) e)

theorem v35_apply (x0 : FVec Ideal S50000x512 .f32) (x1 : IVec S2x800000 32) (x2 : FVec Ideal S512x256 .f32)
    (e : Fin 850000) (c : Fin 256) :
    val_main_v35 (F := Ideal) x0 x1 x2 (ix2 e c)
      = ∑ k : Fin 512, x0 (ix2 (Cert.Gcn.rowAt (by decide : 0 < 50000) (Cert.Gcn.srcCol x1) e) k) * x2 (ix2 k c) := by
  unfold val_main_v35
  rw [v34_eq, rowGather256_eq, Cert.RowOps.rowGather_apply (by decide : 0 < 50000), val_main_v0_apply]
  refine Finset.sum_congr rfl fun k _ => ?_
  rw [lidx0_ix, ridx0_ix]
  unfold Cert.Gcn.rowAt
  rfl

theorem v37_apply' (x1 : IVec S2x800000 32) (e : Fin 850000) (c : Fin 256) :
    val_main_v37 (F := Ideal) x1 (ix2 e c) = nrm x1 e := by
  rw [val_main_v37_apply, idx37_ix, val_main_v36_apply, idx36_ix, v28_norm]

theorem v41_apply (x0 : FVec Ideal S50000x512 .f32) (x1 : IVec S2x800000 32) (x2 : FVec Ideal S512x256 .f32)
    (n : Fin 50000) (c : Fin 256) :
    val_main_v41 (F := Ideal) x0 x1 x2 (ix2 n c)
      = 0 + ∑ e ∈ Cert.Gcn.landing (Cert.Gcn.dstCol x1) n,
          (∑ k : Fin 512, x0 (ix2 (Cert.Gcn.rowAt (by decide : 0 < 50000) (Cert.Gcn.srcCol x1) e) k) * x2 (ix2 k c)) * nrm x1 e := by
  unfold val_main_v41
  rw [v40_eq, scatterAdd_ideal, rowScatter256_eq, Cert.RowOps.rowScatterAdd_apply]
  rw [val_main_v39_apply, val_main_cst_6_apply, Ideal.ofBits_def, Ideal.ofBits_zero_f32]
  unfold Cert.Gcn.landing
  refine congrArg (fun t : EReal => (0 : EReal) + t) ?_
  refine Finset.sum_congr rfl fun e _ => ?_
  rw [val_main_v38_apply, Ideal.mulf_def, v35_apply, v37_apply']

theorem v44_layer (x0 : FVec Ideal S50000x512 .f32) (x1 : IVec S2x800000 32) (x2 : FVec Ideal S512x256 .f32)
    (x3 : FVec Ideal S256 .f32) (n : Fin 50000) (c : Fin 256) :
    val_main_v44 (F := Ideal) x0 x1 x2 x3 (ix2 n c)
      = Cert.Gcn.rLayer (by decide : 0 < 50000) u1 (Cert.Gcn.srcCol x1) (Cert.Gcn.dstCol x1) (Cert.Gcn.dstWrapCol x1)
          (fun r k => x0 (ix2 r k)) (fun k c => x2 (ix2 k c)) (fun c => x3 (ix1 c)) n c := by
  rw [val_main_v44_apply, Ideal.addf_def, v41_apply, val_main_v43_apply, idx43_ix, val_main_v42_apply, idx42_ix]
  unfold Cert.Gcn.rLayer
  rfl

/-! ### `max · 0` between the layers -/

/-- The first layer's output at node `r`, feature `k`. -/
abbrev lay1 (x0 : FVec Ideal S50000x512 .f32) (x1 : IVec S2x800000 32) (x2 : FVec Ideal S512x256 .f32)
    (x3 : FVec Ideal S256 .f32) (r : Fin 50000) (k : Fin 256) : EReal :=
  Cert.Gcn.rLayer (by decide : 0 < 50000) u1 (Cert.Gcn.srcCol x1) (Cert.Gcn.dstCol x1) (Cert.Gcn.dstWrapCol x1)
    (fun r k => x0 (ix2 r k)) (fun k c => x2 (ix2 k c)) (fun c => x3 (ix1 c)) r k

theorem v45_relu (x0 : FVec Ideal S50000x512 .f32) (x1 : IVec S2x800000 32) (x2 : FVec Ideal S512x256 .f32)
    (x3 : FVec Ideal S256 .f32) (n : Fin 50000) (c : Fin 256) :
    val_main_v45 (F := Ideal) x0 x1 x2 x3 (ix2 n c) = max (lay1 x0 x1 x2 x3 n c) 0 := by
  rw [val_main_v45_apply, Ideal.maximumf_def, v44_layer, val_main_call0_v0_apply, val_main_call0_cst_apply,
    Ideal.ofBits_def, Ideal.ofBits_zero_f32]

/-! ### The second layer -/

theorem idx82_ix (e : Fin 850000) : idx_main_v82 (ix2 e (0 : Fin 1)) = ix1 e := by
  funext a; match a with | ⟨0, _⟩ => rfl
theorem idx83_ix (e : Fin 850000) (c : Fin 128) : idx_main_v83 (ix2 e c) = ix2 e (0 : Fin 1) := by
  funext a; match a with | ⟨0, _⟩ => rfl | ⟨1, _⟩ => rfl
theorem idx88_ix (c : Fin 128) : idx_main_v88 (ix2 (0 : Fin 1) c) = ix1 c := by
  funext a; match a with | ⟨0, _⟩ => rfl
theorem idx89_ix (n : Fin 50000) (c : Fin 128) : idx_main_v89 (ix2 n c) = ix2 (0 : Fin 1) c := by
  funext a; match a with | ⟨0, _⟩ => rfl | ⟨1, _⟩ => rfl
theorem lidx46_ix (r : Fin 50000) (c : Fin 128) (k : Fin 256) : lidx_main_v46 (ix2 r c) k = ix2 r k := by
  funext a; match a with | ⟨0, _⟩ => rfl | ⟨1, _⟩ => rfl
theorem ridx46_ix (r : Fin 50000) (c : Fin 128) (k : Fin 256) : ridx_main_v46 (ix2 r c) k = ix2 k c := by
  funext a; match a with | ⟨0, _⟩ => rfl | ⟨1, _⟩ => rfl

theorem v46_apply' (x0 : FVec Ideal S50000x512 .f32) (x1 : IVec S2x800000 32) (x2 : FVec Ideal S512x256 .f32)
    (x3 : FVec Ideal S256 .f32) (x4 : FVec Ideal S256x128 .f32) (r : Fin 50000) (c : Fin 128) :
    val_main_v46 (F := Ideal) x0 x1 x2 x3 x4 (ix2 r c)
      = ∑ k : Fin 256, max (lay1 x0 x1 x2 x3 r k) 0 * x4 (ix2 k c) := by
  rw [val_main_v46_apply]
  refine Finset.sum_congr rfl fun k _ => ?_
  rw [lidx46_ix, ridx46_ix, v45_relu]

theorem v81_apply (x0 : FVec Ideal S50000x512 .f32) (x1 : IVec S2x800000 32) (x2 : FVec Ideal S512x256 .f32)
    (x3 : FVec Ideal S256 .f32) (x4 : FVec Ideal S256x128 .f32) (e : Fin 850000) (c : Fin 128) :
    val_main_v81 (F := Ideal) x0 x1 x2 x3 x4 (ix2 e c)
      = ∑ k : Fin 256, max (lay1 x0 x1 x2 x3 (Cert.Gcn.rowAt (by decide : 0 < 50000) (Cert.Gcn.srcCol x1) e) k) 0 * x4 (ix2 k c) := by
  unfold val_main_v81
  rw [v80_eq, rowGather128_eq, Cert.RowOps.rowGather_apply (by decide : 0 < 50000), v46_apply']
  unfold Cert.Gcn.rowAt
  rfl

theorem v83_apply' (x1 : IVec S2x800000 32) (e : Fin 850000) (c : Fin 128) :
    val_main_v83 (F := Ideal) x1 (ix2 e c) = nrm x1 e := by
  rw [val_main_v83_apply, idx83_ix, val_main_v82_apply, idx82_ix, v74_norm]

theorem v87_apply (x0 : FVec Ideal S50000x512 .f32) (x1 : IVec S2x800000 32) (x2 : FVec Ideal S512x256 .f32)
    (x3 : FVec Ideal S256 .f32) (x4 : FVec Ideal S256x128 .f32) (n : Fin 50000) (c : Fin 128) :
    val_main_v87 (F := Ideal) x0 x1 x2 x3 x4 (ix2 n c)
      = 0 + ∑ e ∈ Cert.Gcn.landing (Cert.Gcn.dstCol x1) n,
          (∑ k : Fin 256, max (lay1 x0 x1 x2 x3 (Cert.Gcn.rowAt (by decide : 0 < 50000) (Cert.Gcn.srcCol x1) e) k) 0 * x4 (ix2 k c))
            * nrm x1 e := by
  unfold val_main_v87
  rw [v86_eq, scatterAdd_ideal, rowScatter128_eq, Cert.RowOps.rowScatterAdd_apply]
  rw [val_main_v85_apply, val_main_cst_15_apply, Ideal.ofBits_def, Ideal.ofBits_zero_f32]
  unfold Cert.Gcn.landing
  refine congrArg (fun t : EReal => (0 : EReal) + t) ?_
  refine Finset.sum_congr rfl fun e _ => ?_
  rw [val_main_v84_apply, Ideal.mulf_def, v81_apply, v83_apply']

/-- THE REFERENCE'S RESULT AT (n, j): two layers as the reference arranges them. -/
theorem val_main_v90_apply_rOut (x0 : FVec Ideal S50000x512 .f32) (x1 : IVec S2x800000 32) (x2 : FVec Ideal S512x256 .f32)
    (x3 : FVec Ideal S256 .f32) (x4 : FVec Ideal S256x128 .f32) (x5 : FVec Ideal S128 .f32) (n : Fin 50000) (j : Fin 128) :
    Cert.ReferenceIdeal.Read.val_main_v90 (F := Ideal) x0 x1 x2 x3 x4 x5 (ix2 n j)
      = Cert.Gcn.rOut (by decide : 0 < 50000) (Ideal.ofBits .f32 0x3F800000#32) (Cert.Gcn.srcCol x1) (Cert.Gcn.dstCol x1)
          (Cert.Gcn.dstWrapCol x1) (fun r k => x0 (ix2 r k)) (fun k c => x2 (ix2 k c)) (fun c => x3 (ix1 c))
          (fun k c => x4 (ix2 k c)) (fun c => x5 (ix1 c)) n j := by
  rw [val_main_v90_apply, Ideal.addf_def, v87_apply, val_main_v89_apply, idx89_ix, val_main_v88_apply, idx88_ix]
  unfold Cert.Gcn.rOut Cert.Gcn.rLayer
  rfl

end Cert.Gcn.Ref
end
-- ==== Proof.LibHopAlgebra.lean ====
/-
  Graph propagation over the extended reals commutes with a right matrix product,
  for real-valued data.

  A propagation step ("hop") gathers, at every node `n`, the weighted features of the
  sources of the edges landing at `n`:

      hop S src w h n k = 0 + ∑ e ∈ S n, w e * h (src e) k,

  where `S n` is the finite set of edges landing at `n`, `src e` is the source node of
  the edge `e`, `w e` its weight, and `h a k` the `k`-th feature of the node `a`.
  The leading `0 +` is the initial value of the accumulator the sum is folded into.

  Multiplying the features on the right by a matrix `B` is linear, and a hop is linear,
  so over a commutative ring the two commute:

      ∑ k, (∑ e, w e * h (src e) k) * B k j = ∑ e, w e * ∑ k, h (src e) k * B k j,

  by distributing both products over the sums, exchanging the two finite sums and
  re-associating the product. Over the extended reals `[-∞, +∞]` this argument is NOT
  available: multiplication does not distribute over addition there (`⊤ + ⊥ = ⊥` and
  `0 * ⊤ = 0`, so `(1 + (-1)) * ⊤ = 0` while `1 * ⊤ + (-1) * ⊤ = ⊥`). The statement is
  therefore made for data that are coercions of real numbers: every extended-real
  expression below is first shown to be the coercion of the same expression computed in
  `ℝ` (the coercion `ℝ → EReal` preserves `0`, `+`, `*`, hence finite sums), and the
  identity is then proved in `ℝ`, where it is the ring computation above.
-/
import Mathlib.Data.EReal.Basic
import Mathlib.Algebra.BigOperators.Group.Finset.Sigma
import Mathlib.Algebra.BigOperators.Ring.Finset

open scoped BigOperators

namespace Cert.HopAlgebra

variable {ι ν κ γ : Type} [Fintype κ]

/-- the coercion of a finite real sum -/
theorem coe_sum {α : Type} (s : Finset α) (f : α → ℝ) :
    ((∑ a ∈ s, f a : ℝ) : EReal) = ∑ a ∈ s, (f a : EReal) := by
  classical
  induction s using Finset.induction_on with
  | empty => rw [Finset.sum_empty, Finset.sum_empty, EReal.coe_zero]
  | insert a s ha ih =>
    rw [Finset.sum_insert ha, Finset.sum_insert ha, EReal.coe_add, ih]

/-- one propagation step over the extended reals -/
noncomputable def hop {κ' : Type} (S : ν → Finset ι) (src : ι → ν) (w : ι → EReal) (h : ν → κ' → EReal)
    (n : ν) (k : κ') : EReal :=
  0 + ∑ e ∈ S n, w e * h (src e) k

/-- the same step over the reals -/
noncomputable def hopR {κ' : Type} (S : ν → Finset ι) (src : ι → ν) (w : ι → ℝ) (h : ν → κ' → ℝ)
    (n : ν) (k : κ') : ℝ :=
  ∑ e ∈ S n, w e * h (src e) k

/-- a hop of real-valued data is the coercion of the real hop -/
theorem hop_coe {κ' : Type} (S) (src) (w : ι → ℝ) (h : ν → κ' → ℝ) (n : ν) (k : κ') :
    hop S src (fun e => (w e : EReal)) (fun a c => (h a c : EReal)) n k
      = ((hopR S src w h n k : ℝ) : EReal) := by
  unfold hop hopR
  rw [zero_add, coe_sum]
  exact Finset.sum_congr rfl (fun e _ => (EReal.coe_mul _ _).symm)

/-- a real contraction as a coercion -/
theorem dot_coe (a : κ → ℝ) (b : κ → ℝ) :
    (∑ k, (a k : EReal) * (b k : EReal)) = ((∑ k, a k * b k : ℝ) : EReal) := by
  rw [coe_sum]
  exact Finset.sum_congr rfl (fun k _ => (EReal.coe_mul _ _).symm)

/-- over the reals a hop commutes with right multiplication by a matrix -/
theorem hopR_dot (S) (src) (w : ι → ℝ) (h : ν → κ → ℝ) (B : κ → γ → ℝ) (n : ν) (j : γ) :
    ∑ k, hopR S src w h n k * B k j
      = hopR S src w (fun a j' => ∑ k, h a k * B k j') n j := by
  unfold hopR
  -- distribute: each side becomes a double sum of the triple products
  have hl : ∀ k, (∑ e ∈ S n, w e * h (src e) k) * B k j
      = ∑ e ∈ S n, w e * (h (src e) k * B k j) := fun k => by
    rw [Finset.sum_mul]
    exact Finset.sum_congr rfl (fun e _ => mul_assoc _ _ _)
  have hr : ∀ e, w e * ∑ k, h (src e) k * B k j
      = ∑ k, w e * (h (src e) k * B k j) := fun e => Finset.mul_sum _ _ _
  rw [Finset.sum_congr rfl (fun k _ => hl k), Finset.sum_congr rfl (fun e _ => hr e)]
  -- exchange the sum over features and the sum over edges
  exact Finset.sum_comm

/-- THE RESULT: two hops then the contraction with B  =  the contraction with B then two
hops, for real-valued data -/
theorem hop_hop_dot (S : ν → Finset ι) (src : ι → ν) (w : ι → ℝ) (x : ν → κ → ℝ)
    (B : κ → γ → ℝ) (n : ν) (j : γ) :
    ∑ k, hop S src (fun e => (w e : EReal))
          (hop S src (fun e => (w e : EReal)) (fun a k => (x a k : EReal))) n k * (B k j : EReal)
      = hop S src (fun e => (w e : EReal))
          (hop S src (fun e => (w e : EReal))
            (fun a j' => ∑ k, (x a k : EReal) * (B k j' : EReal))) n j := by
  -- the inner hop of the left side is the coercion of a real hop
  have h1 : hop S src (fun e => (w e : EReal)) (fun a k => (x a k : EReal))
      = fun a k => ((hopR S src w x a k : ℝ) : EReal) := by
    funext a k; exact hop_coe S src w x a k
  -- the contraction with B is the coercion of a real contraction
  have h2 : (fun a j' => ∑ k, (x a k : EReal) * (B k j' : EReal))
      = fun a j' => (((∑ k, x a k * B k j') : ℝ) : EReal) := by
    funext a j'; exact dot_coe _ _
  -- hence the inner hop of the right side is the coercion of a real hop, too
  have h3 : hop S src (fun e => (w e : EReal))
        (fun a j' => (((∑ k, x a k * B k j') : ℝ) : EReal))
      = fun a j' => ((hopR S src w (fun a j' => ∑ k, x a k * B k j') a j' : ℝ) : EReal) := by
    funext a j'; exact hop_coe S src w (fun a j' => ∑ k, x a k * B k j') a j'
  -- the outer hops
  have h4 : ∀ k, hop S src (fun e => (w e : EReal))
        (fun a k => ((hopR S src w x a k : ℝ) : EReal)) n k
      = ((hopR S src w (hopR S src w x) n k : ℝ) : EReal) :=
    fun k => hop_coe S src w (hopR S src w x) n k
  have h5 : hop S src (fun e => (w e : EReal))
        (fun a j' => ((hopR S src w (fun a j' => ∑ k, x a k * B k j') a j' : ℝ) : EReal)) n j
      = ((hopR S src w (hopR S src w (fun a j' => ∑ k, x a k * B k j')) n j : ℝ) : EReal) :=
    hop_coe S src w (hopR S src w (fun a j' => ∑ k, x a k * B k j')) n j
  rw [h1, h2, h3, h5, Finset.sum_congr rfl (fun k _ => by rw [h4 k]),
    dot_coe (fun k => hopR S src w (hopR S src w x) n k) (fun k => B k j)]
  -- both sides are coercions; the identity is now one between real numbers
  congr 1
  rw [hopR_dot S src w (hopR S src w x) B n j]
  -- the inner hop commutes with the contraction, node by node
  have h6 : (fun a j' => ∑ k, hopR S src w x a k * B k j')
      = hopR S src w (fun a j' => ∑ k, x a k * B k j') := by
    funext a j'; exact hopR_dot S src w x B a j'
  rw [h6]

end Cert.HopAlgebra
-- ==== Proof.Algebra.lean ====
/-
  The two arrangements of the two-layer graph convolution agree on real-valued data.

  Multiplication does not distribute over addition on the extended reals, so the factor `dinv n` cannot be
  moved across the sum over the landing edges there. Instead every quantity is shown to be the coercion of a
  real number, and the identity is one between real numbers.

  With unit weight the in-degree of `n` is the number of edges landing at `n`; when every node receives an edge
  this number is positive, so its reciprocal square root is the real number `(√card)⁻¹`. For real-valued
  features, weights and bias, both arrangements of one layer are then the coercion of
      L n j = d n * ∑_{e lands at n} (∑ k, X (src e) k * B k j) * d (src e) + b j,
  the reference's second column reading back `n` on every edge landing at `n`. The maximum with zero of a
  real number is real, so the second layer is fed real-valued features on both sides, and the same statement
  applies once more.
-/
import proofs.«116918_j58720792871577_2_alg».proof.Proof.Spec
import proofs.«116918_j58720792871577_2_alg».proof.Proof.LibHopAlgebra

open scoped BigOperators

noncomputable section

namespace Cert.Gcn

open Idealize.ShloMosaic Idealize.ShloMosaic.ValueIdx
open Cert.HopAlgebra (coe_sum)

variable {N E K K' D : Nat}

/-- with unit weight the in-degree is the coercion of the number of landing edges -/
theorem degree_one (ic : IVec ⟨2, ![E, 1]⟩ 32) (n : Fin N) :
    degree ((1 : ℝ) : EReal) ic n = (((landing ic n).card : ℝ) : EReal) := by
  unfold degree
  rw [zero_add, ← coe_sum, Finset.sum_const, nsmul_eq_mul, mul_one]

/-- when every node receives an edge, the reciprocal square root of the in-degree is a real number -/
theorem dinv_real (di : IVec ⟨2, ![E, 1]⟩ 32) (hself : ∀ n : Fin N, (landing di n).Nonempty) :
    ∃ d : Fin N → ℝ, ∀ n, dinv ((1 : ℝ) : EReal) di n = (d n : EReal) := by
  refine ⟨fun n => (Real.sqrt ((landing di n).card : ℝ))⁻¹, fun n => ?_⟩
  have hpos : (0 : ℝ) < ((landing di n).card : ℝ) := by
    exact_mod_cast Finset.card_pos.mpr (hself n)
  unfold dinv
  rw [degree_one, Ideal.rsqrt_coe, if_neg (not_lt.mpr hpos.le), if_neg hpos.ne']

/-- a real contraction as a coercion -/
theorem dot_real (a : Fin K → ℝ) (c : Fin K → ℝ) :
    (∑ k, (a k : EReal) * (c k : EReal)) = ((∑ k, a k * c k : ℝ) : EReal) := by
  rw [coe_sum]
  exact Finset.sum_congr rfl (fun k _ => (EReal.coe_mul _ _).symm)

/-- the maximum of a real number and zero, as a coercion -/
theorem max_real_zero (a : ℝ) : max (a : EReal) 0 = ((max a 0 : ℝ) : EReal) := by
  rw [← EReal.coe_zero]
  rcases le_total a 0 with h | h
  · rw [max_eq_right h, max_eq_right (EReal.coe_le_coe_iff.mpr h)]
  · rw [max_eq_left h, max_eq_left (EReal.coe_le_coe_iff.mpr h)]

/-- for real-valued data both arrangements of one layer are the coercion of one real number -/
theorem layer_real (hN : 0 < N) (si di di' : IVec ⟨2, ![E, 1]⟩ 32)
    (d : Fin N → ℝ) (hd : ∀ n, dinv ((1 : ℝ) : EReal) di n = (d n : EReal))
    (hwrap : ∀ (n : Fin N) (e : Fin E), e ∈ landing di n → rowAt hN di' e = n)
    (X : Fin N → Fin K → ℝ) (B : Fin K → Fin D → ℝ) (b : Fin D → ℝ) :
    ∃ L : Fin N → Fin D → ℝ, ∀ n j,
      kLayer hN ((1 : ℝ) : EReal) si di (fun r k => (X r k : EReal)) (fun k c => (B k c : EReal))
          (fun c => (b c : EReal)) n j = (L n j : EReal)
      ∧ rLayer hN ((1 : ℝ) : EReal) si di di' (fun r k => (X r k : EReal)) (fun k c => (B k c : EReal))
          (fun c => (b c : EReal)) n j = (L n j : EReal) := by
  refine ⟨fun n j => d n * ∑ e ∈ landing di n, (∑ k, X (rowAt hN si e) k * B k j) * d (rowAt hN si e) + b j,
    fun n j => ⟨?_, ?_⟩⟩
  · -- the kernel's arrangement: the coercion is pushed out of the sum, the product and the sum with the bias
    have hs : (∑ e ∈ landing di n, (∑ k : Fin K, (X (rowAt hN si e) k : EReal) * (B k j : EReal))
          * dinv ((1 : ℝ) : EReal) di (rowAt hN si e))
        = ((∑ e ∈ landing di n, (∑ k, X (rowAt hN si e) k * B k j) * d (rowAt hN si e) : ℝ) : EReal) := by
      rw [coe_sum]
      exact Finset.sum_congr rfl (fun e _ => by
        rw [dot_real (fun k => X (rowAt hN si e) k) (fun k => B k j), hd, ← EReal.coe_mul])
    show dinv ((1 : ℝ) : EReal) di n * (0 + ∑ e ∈ landing di n,
        (∑ k : Fin K, (X (rowAt hN si e) k : EReal) * (B k j : EReal)) * dinv ((1 : ℝ) : EReal) di (rowAt hN si e))
      + (b j : EReal) = _
    rw [zero_add, hs, hd n, ← EReal.coe_mul, ← EReal.coe_add]
  · -- the reference's arrangement: the second column reads back `n` on the edges landing at `n`
    have hs : (∑ e ∈ landing di n, (∑ k : Fin K, (X (rowAt hN si e) k : EReal) * (B k j : EReal))
          * (dinv ((1 : ℝ) : EReal) di (rowAt hN si e) * dinv ((1 : ℝ) : EReal) di (rowAt hN di' e)))
        = ((∑ e ∈ landing di n, (∑ k, X (rowAt hN si e) k * B k j) * (d (rowAt hN si e) * d n) : ℝ) : EReal) := by
      rw [coe_sum]
      exact Finset.sum_congr rfl (fun e he => by
        rw [hwrap n e he, dot_real (fun k => X (rowAt hN si e) k) (fun k => B k j), hd, hd,
          ← EReal.coe_mul, ← EReal.coe_mul])
    show (0 + ∑ e ∈ landing di n,
        (∑ k : Fin K, (X (rowAt hN si e) k : EReal) * (B k j : EReal))
          * (dinv ((1 : ℝ) : EReal) di (rowAt hN si e) * dinv ((1 : ℝ) : EReal) di (rowAt hN di' e)))
      + (b j : EReal) = _
    rw [zero_add, hs, ← EReal.coe_add]
    -- now an identity between real numbers: the factor `d n` leaves the sum
    refine congrArg (fun t : ℝ => (t : EReal)) ?_
    show (∑ e ∈ landing di n, (∑ k, X (rowAt hN si e) k * B k j) * (d (rowAt hN si e) * d n)) + b j
      = d n * (∑ e ∈ landing di n, (∑ k, X (rowAt hN si e) k * B k j) * d (rowAt hN si e)) + b j
    rw [Finset.mul_sum]
    exact congrArg (· + b j) (Finset.sum_congr rfl (fun e _ => by ring))

/-- THE RESULT: on real-valued data, with every node receiving an edge and the second column reading back the
    receiving node, the two arrangements of the two layers agree. -/
theorem kOut_eq_rOut {N E K K' D : Nat} (hN : 0 < N) (si di di' : IVec ⟨2, ![E, 1]⟩ 32)
    (x : Fin N → Fin K → EReal) (W1 : Fin K → Fin K' → EReal) (b1 : Fin K' → EReal) (W2 : Fin K' → Fin D → EReal) (b2 : Fin D → EReal)
    (hx : ∀ r k, ∃ v : ℝ, x r k = (v : EReal)) (hW1 : ∀ k c, ∃ v : ℝ, W1 k c = (v : EReal)) (hb1 : ∀ c, ∃ v : ℝ, b1 c = (v : EReal))
    (hW2 : ∀ k c, ∃ v : ℝ, W2 k c = (v : EReal)) (hb2 : ∀ c, ∃ v : ℝ, b2 c = (v : EReal))
    (hself : ∀ n : Fin N, (landing di n).Nonempty)
    (hwrap : ∀ (n : Fin N) (e : Fin E), e ∈ landing di n → rowAt hN di' e = n)
    (n : Fin N) (j : Fin D) :
    kOut hN ((1 : ℝ) : EReal) si di x W1 b1 W2 b2 n j = rOut hN ((1 : ℝ) : EReal) si di di' x W1 b1 W2 b2 n j := by
  obtain ⟨d, hd⟩ := dinv_real di hself
  -- real witnesses for the data
  choose X hX using hx
  choose B1 hB1 using hW1
  choose c1 hc1 using hb1
  choose B2 hB2 using hW2
  choose c2 hc2 using hb2
  obtain rfl : x = fun r k => (X r k : EReal) := funext fun r => funext fun k => hX r k
  obtain rfl : W1 = fun k c => (B1 k c : EReal) := funext fun k => funext fun c => hB1 k c
  obtain rfl : b1 = fun c => (c1 c : EReal) := funext fun c => hc1 c
  obtain rfl : W2 = fun k c => (B2 k c : EReal) := funext fun k => funext fun c => hB2 k c
  obtain rfl : b2 = fun c => (c2 c : EReal) := funext fun c => hc2 c
  -- the first layer is one real matrix on both sides, and so is its maximum with zero
  obtain ⟨L1, hL1⟩ := layer_real hN si di di' d hd hwrap X B1 c1
  have hk : (fun r k => max (kLayer hN ((1 : ℝ) : EReal) si di (fun r k => (X r k : EReal))
        (fun k c => (B1 k c : EReal)) (fun c => (c1 c : EReal)) r k) 0)
      = fun r k => ((max (L1 r k) 0 : ℝ) : EReal) :=
    funext fun r => funext fun k => by rw [(hL1 r k).1, max_real_zero]
  have hr : (fun r k => max (rLayer hN ((1 : ℝ) : EReal) si di di' (fun r k => (X r k : EReal))
        (fun k c => (B1 k c : EReal)) (fun c => (c1 c : EReal)) r k) 0)
      = fun r k => ((max (L1 r k) 0 : ℝ) : EReal) :=
    funext fun r => funext fun k => by rw [(hL1 r k).2, max_real_zero]
  -- the second layer, on these real-valued features
  obtain ⟨L2, hL2⟩ := layer_real hN si di di' d hd hwrap (fun r k => max (L1 r k) 0) B2 c2
  unfold kOut rOut
  rw [hk, hr, (hL2 n j).1, (hL2 n j).2]

end Cert.Gcn

end
-- ==== Proof.FiniteInputs.lean ====
/-
  From the precondition to: every entry of the five float arguments is a real number.

  The precondition is the conjunction, over the five float arguments, of "every entry `x` of the array has
  `|x| < +∞`", each conjunct a reduction by `and` of the array of comparisons, from the constant 1, over all axes.
  The conjunction being 1 makes each conjunct 1; a reduction by `and` over all axes that is 1 met only 1s; and
  the comparison `|x| < +∞` being 1 at an entry `x` of the extended reals leaves `x` neither `-∞` nor `+∞`
  (for either of them `|x| = max x (-x)` is `+∞`), that is, the coercion of a real number. The pattern
  `0x7F800000` is read as `+∞`: exponent all ones, significand zero, sign clear.
-/
import proofs.«116918_j58720792871577_2_alg».proof.Defs
import proofs.«116918_j58720792871577_2_alg».proof.Proof.Gen.Pre_finite_inputs
import Idealize.ShloMosaic.Lib.ReduceAll
import Idealize.ShloMosaic.Lib.ValueIdx

noncomputable section

namespace Cert.Gcn.Finite

open Idealize.ShloMosaic Idealize.SL.Sem Idealize.ShloMosaic.ValueIdx
open Cert.Pre_finite_inputs (S_)

/-- the shape of no axes has one index -/
instance : Subsingleton S_.Idx := ⟨fun a b => funext fun d => d.elim0⟩

/-- an extended real whose absolute value compares below `+∞` is the coercion of a real number -/
theorem real_of_abs_lt_inf (x : Ideal .f32)
    (h : FloatOps.cmpf .olt (FloatOps.hostAbsf x) (FloatOps.ofBits (F := Ideal) .f32 0x7F800000#32) = 1#1) :
    ∃ v : ℝ, x = (v : EReal) := by
  -- the pattern denotes `+∞`
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  -- the comparison being 1 is the strict inequality
  have hlt : max (x : EReal) (-(x : EReal)) < ⊤ := by
    by_contra hn
    have h0 : Ideal.cmp .olt (max (x : EReal) (-(x : EReal))) ⊤ = 0#1 := by simp [Ideal.cmp, hn]
    rw [h0] at h
    exact absurd h (by decide)
  -- `max x (-x)` is `+∞` at both infinities
  induction x using EReal.rec with
  | bot => simp at hlt
  | top => simp at hlt
  | coe v => exact ⟨v, rfl⟩

/-- an array all of whose entries have `|x| < +∞`, that fact stated as a reduction by `and` over all its axes
    being 1, has only real entries -/
theorem all_real {s : Shape} {axes : List (Fin s.rank)} (x : FVec Ideal s .f32) (init : IVec S_ 1)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      init h hu ix0 = 1#1) (i : s.Idx) : ∃ v : ℝ, x i = (v : EReal) :=
  real_of_abs_lt_inf (x i) (Host.reduce_andi_all _ init h hu ix0 e i)

/-- THE RESULT: under the precondition every entry of each float argument is a real number -/
theorem real_args (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ v : ℝ, m ((c.tc : Thread Cert.KernelIdeal.nD Cert.KernelIdeal.τ).loc Cert.KernelIdeal.main_arg0) i = (v : EReal))
    ∧ (∀ i, ∃ v : ℝ, m ((c.tc : Thread Cert.KernelIdeal.nD Cert.KernelIdeal.τ).loc Cert.KernelIdeal.main_arg2) i = (v : EReal))
    ∧ (∀ i, ∃ v : ℝ, m ((c.tc : Thread Cert.KernelIdeal.nD Cert.KernelIdeal.τ).loc Cert.KernelIdeal.main_arg3) i = (v : EReal))
    ∧ (∀ i, ∃ v : ℝ, m ((c.tc : Thread Cert.KernelIdeal.nD Cert.KernelIdeal.τ).loc Cert.KernelIdeal.main_arg4) i = (v : EReal))
    ∧ (∀ i, ∃ v : ℝ, m ((c.tc : Thread Cert.KernelIdeal.nD Cert.KernelIdeal.τ).loc Cert.KernelIdeal.main_arg5) i = (v : EReal)) := by
  -- the precondition at its one index: a conjunction of five reductions
  have h := congrFun (hpre c) ix0
  dsimp only [Cert.Pre_finite_inputs.fn, Cert.Pre_finite_inputs.fn_part1, andi] at h
  obtain ⟨h0234, h5⟩ := IntOp.andi_eq_one.1 h
  obtain ⟨h023, h4⟩ := IntOp.andi_eq_one.1 h0234
  obtain ⟨h02, h3⟩ := IntOp.andi_eq_one.1 h023
  obtain ⟨h0, h2⟩ := IntOp.andi_eq_one.1 h02
  exact ⟨fun i => all_real _ _ _ _ _ h0 i, fun i => all_real _ _ _ _ _ h2 i, fun i => all_real _ _ _ _ _ h3 i,
    fun i => all_real _ _ _ _ _ h4 i, fun i => all_real _ _ _ _ _ h5 i⟩

end Cert.Gcn.Finite

end
-- ==== Proof.Bridge.lean ====
/-
  The two idealized programs compute the same array.

  From memories that agree on the six arguments, and under the precondition that every floating-point argument entry
  is finite, the reference's result and the kernel program's result agree entry by entry: at `(n, j)` the first is the
  two-layer graph convolution in the reference's arrangement, the second the same convolution in the kernel's, over the
  same index columns and the same argument entries; every argument entry is the coercion of a real number, every
  node has its self-loop among the edges landing at it (so every in-degree is at least one and its reciprocal square
  root is real), and an edge landing at `n` reads `n` back through the wrapped destination column; for such data the two
  arrangements are one real number.
-/
import proofs.«116918_j58720792871577_2_alg».proof.Proof.KValue
import proofs.«116918_j58720792871577_2_alg».proof.Proof.RefValue
import proofs.«116918_j58720792871577_2_alg».proof.Proof.Algebra
import proofs.«116918_j58720792871577_2_alg».proof.Proof.IndexFacts
import proofs.«116918_j58720792871577_2_alg».proof.Proof.FiniteInputs

set_option maxRecDepth 16384

noncomputable section

namespace Cert.Gcn.Bridge

open Idealize.ShloMosaic Idealize.ShloMosaic.TcCoe Idealize.SL.Sem Idealize.ShloMosaic.ValueIdx

theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v90 (F := Ideal) m' c
      = Cert.KernelIdeal.Gen.W7 (F := Ideal) m ρ c (Proc.devRef .tc Cert.KernelIdeal.main_v38) := by
  funext i
  obtain ⟨n, j, rfl⟩ : ∃ (n : Fin 50000) (j : Fin 128), i = ix2 n j := ⟨i 0, i 1, eq_ix2 i⟩
  obtain ⟨r0, r2, r3, r4, r5⟩ := Cert.Gcn.Finite.real_args m hpre c
  rw [Cert.ReferenceIdeal.Read.val_main_v90_eq, h0, h1, h2, h3, h4, h5]
  refine (Cert.Gcn.Ref.val_main_v90_apply_rOut _ _ _ _ _ _ n j).trans ?_
  refine Eq.trans ?_ (Cert.KernelIdeal.KValue.result_apply m ρ c n j).symm
  rw [Cert.Gcn.unit_f32]
  exact (Cert.Gcn.kOut_eq_rOut (by decide) _ _ _ _ _ _ _ _ (fun r k => r0 _) (fun k d => r2 _) (fun d => r3 _) (fun k d => r4 _)
    (fun d => r5 _) (fun n => Cert.Gcn.landing_selfLoop _ n) (fun n e he => Cert.Gcn.rowAt_dstWrapCol_of_landing _ n e he) n j).symm

end Cert.Gcn.Bridge

end
-- ==== Proof.lean ====
/-
  The certificate of a two-layer graph convolution kernel against its reference.

  The kernel program is four kernel regions among host operations: per layer a region that multiplies the node
  features by the layer's weights and scales each row by the reciprocal square root of the node's in-degree, a host
  gather of those rows along the edges' sources and an adding scatter to the edges' destinations, and a region that
  scales each aggregated row by the same factor of the receiving node, adds the bias and (after the first layer) takes
  the maximum with zero. The reference scales every edge's gathered row by the product of the two factors before the
  scatter. Over the extended reals a factor moves across a sum only when the summands are real numbers: they are,
  because the arguments are finite and every node's in-degree counts its self-loop.

  The three frames: the two kernel programs' are their generated frame certificates; the reference's is its generated
  run with the result dropped. The idealization rewrote no operation. The algebraic claim: the kernel program's run
  with its result named, the reference's generated run, and the entry-by-entry equality of the two results.
-/
import proofs.«116918_j58720792871577_2_alg».proof.Defs
import proofs.«116918_j58720792871577_2_alg».proof.Proof.Gen.Kernel
import proofs.«116918_j58720792871577_2_alg».proof.Proof.Gen.Kernel.Skeleton
import proofs.«116918_j58720792871577_2_alg».proof.Proof.Gen.Kernel.Launch
import proofs.«116918_j58720792871577_2_alg».proof.Proof.Gen.Kernel.Points
import proofs.«116918_j58720792871577_2_alg».proof.Proof.Gen.Kernel.Frame
import proofs.«116918_j58720792871577_2_alg».proof.Proof.Gen.KernelIdeal
import proofs.«116918_j58720792871577_2_alg».proof.Proof.Gen.KernelIdeal.Skeleton
import proofs.«116918_j58720792871577_2_alg».proof.Proof.Gen.KernelIdeal.Launch
import proofs.«116918_j58720792871577_2_alg».proof.Proof.Gen.KernelIdeal.Points
import proofs.«116918_j58720792871577_2_alg».proof.Proof.Gen.KernelIdeal.Frame
import proofs.«116918_j58720792871577_2_alg».proof.Proof.Gen.ReferenceIdeal
import proofs.«116918_j58720792871577_2_alg».proof.Proof.Gen.Pre_finite_inputs
import proofs.«116918_j58720792871577_2_alg».proof.Proof.Gen.ReferenceIdeal.Run
import proofs.«116918_j58720792871577_2_alg».proof.Proof.Gen.ReferenceIdeal.Read
import proofs.«116918_j58720792871577_2_alg».proof.Proof.KRun
import proofs.«116918_j58720792871577_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v38),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  exact Cert.Gcn.Bridge.result_eq m ρ m' hpre c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
